-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S512x10000 : Shape := ⟨2, ![512, 10000]⟩
abbrev S512x128 : Shape := ⟨2, ![512, 128]⟩
abbrev S10240x128 : Shape := ⟨2, ![10240, 128]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S10000x128, .f32⟩
  | .local _ .vmem, ⟨1, _⟩ => ⟨S512x10000, .f32⟩
  | .local _ .vmem, ⟨2, _⟩ => ⟨S512x10000, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S10000x128, .f32⟩
  | .local _ .vmem, ⟨10, _⟩ => ⟨S10240x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c512_i32 : BitVec 32 := 512#32
  let v24 : BitVec 32 := Scalar.muli arg1 c512_i32
  let v25 : Index := Scalar.indexCast v24
  let c0_14 : Index := 0#32
  ![v25.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S512x10000_S512x10000_0_0 : ∀ a, (![0, 0] : Fin 2 → Nat) a + S512x10000.size a ≤ S512x10000.size a
  h_S512x10000 : 0 < S512x10000.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  h_S512x128 : 0 < S512x128.numel
  shapeCasts_S512x128_S512x128 : S512x128.ShapeCasts S512x128
  inb_S10240x128_S10000x128_0_0 : ∀ a, (![0, 0] : Fin 2 → Nat) a + S10000x128.size a ≤ S10240x128.size a
  inb_S512x128_S512x128_0_0 : ∀ a, (![0, 0] : Fin 2 → Nat) a + S512x128.size a ≤ S512x128.size a
  dot_S10000x128_S128x128_S10000x128_1_0_0_1_n_n_wf : DotDims.WF S10000x128 S128x128 S10000x128 [1] [0] [0] [1] [] []
  dot_S512x10000_S10000x128_S512x128_1_0_0_1_n_n_wf : DotDims.WF S512x10000 S10000x128 S512x128 [1] [0] [0] [1] [] []
  dot_S512x128_S128x128_S512x128_1_0_0_1_n_n_wf : DotDims.WF S512x128 S128x128 S512x128 [1] [0] [0] [1] [] []
  hrank0 : 0 < grid0.rank
  k0_off1_inb : ∀ i : grid0.Coords, ∀ (k0_h2 : k0_cond2 i = 1#1), ∀ a, (k0_off1 i) a + S512x128.size a ≤ S10240x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x10000.size a < S10000x10000.size a
  hwx0_1 : ∀ i : grid0.Coords, EltTy.bits .f32 = 32 ∨ (Rect.unit (s := S10000x10000) (fun a => cc0_transform_1 i a * S512x10000.size a) (fun a => (Pipeline.Clip.of (cc0_transform_1 i a) (S512x10000.size a) (S10000x10000.size a)).extent (S512x10000.size a)) fun a => Pipeline.Clip.inb (Pipeline.Clip.ok_of (hstart0_1 i a))).WholeWords (EltTy.packing .f32)
  hwxs0_1 : ∀ i : grid0.Coords, EltTy.bits .f32 = 32 ∨ (Rect.unit (s := S512x10000) (fun _ => 0) (fun a => (Pipeline.Clip.of (cc0_transform_1 i a) (S512x10000.size a) (S10000x10000.size a)).extent (S512x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S512x128.size a < S10000x128.size a
  hwx0_6 : ∀ i : grid0.Coords, EltTy.bits .f32 = 32 ∨ (Rect.unit (s := S10000x128) (fun a => cc0_transform_6 i a * S512x128.size a) (fun a => (Pipeline.Clip.of (cc0_transform_6 i a) (S512x128.size a) (S10000x128.size a)).extent (S512x128.size a)) fun a => Pipeline.Clip.inb (Pipeline.Clip.ok_of (hstart0_6 i a))).WholeWords (EltTy.packing .f32)
  hwxs0_6 : ∀ i : grid0.Coords, EltTy.bits .f32 = 32 ∨ (Rect.unit (s := S512x128) (fun _ => 0) (fun a => (Pipeline.Clip.of (cc0_transform_6 i a) (S512x128.size a) (S10000x128.size a)).extent (S512x128.size a)) fun a => (Nat.zero_add _).trans_le (Pipeline.Clip.extent_le (Pipeline.Clip.ok_of (hstart0_6 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S512x10000_S10000x128_S512x128_1_0_0_1_n_n : DotDims S512x10000 S10000x128 S512x128 where
  lhsContracting := [1]
  rhsContracting := [0]
  lhsNonContracting := [0]
  rhsNonContracting := [1]
  lhsBatch := []
  rhsBatch := []
  wf := dot_S512x10000_S10000x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S512x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v0) S512x128.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S10000x128, .f32⟩
  | .hbm, ⟨26, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KBase.lean ====
/-
  The kernel body run once, symbolically, for any float interpretation.

  The body has three guarded parts. At the very first grid point it stores the product of the feature matrix
  and the first weight matrix whole into the first scratch buffer. At every point of the first pass (the
  first grid coordinate is 0) it multiplies the staged 512-row stripe of the adjacency matrix by that scratch,
  adds the first bias row, clamps below at zero, multiplies by the second weight matrix and stores the 512
  rows at row offset 512·j of the second scratch buffer (j the second grid coordinate). At every point of the
  second pass it multiplies the staged stripe by the first 10000 rows of the second scratch, adds the second
  bias row, applies the logistic function and stores the 512 rows whole into the output's staging buffer.

  Each theorem below says, for one of the three combinations of guards the grid meets, what the buffers the
  body touches hold afterwards as a function of what they held before; nothing is assumed about the contents.
-/
import proofs.«139752_g42614665511374_cont_8to1_b_1813_10_alg».proof.Proof.Gen.Kernel.Frame
import proofs.«139752_g42614665511374_cont_8to1_b_1813_10_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The three guards, and where on the grid each holds -/

/-- The guard of the first part: both grid coordinates are zero. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The guard of the second part: the first grid coordinate is zero (the first pass). -/
abbrev cond2 (i : grid0.Coords) : Prop := k0_cond2 i = 1#1
/-- The guard of the third part: the first grid coordinate is one (the second pass). -/
abbrev cond3 (i : grid0.Coords) : Prop := k0_cond3 i = 1#1

/-- The grid is 2 × 20, walked row-major: point `t` has coordinates `(t / 20, t % 20)`. So the first guard holds
    at point 0 only, the second at points 0‥19, the third at points 20‥39. -/
theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 20 :=
  (by decide +kernel : ∀ t : Fin grid0.N, cond2 (grid0.coords t) ↔ t.val < 20)
theorem hcond3 : ∀ t : Fin cfg0.N, cond3 (grid0.coords t) ↔ 20 ≤ t.val :=
  (by decide +kernel : ∀ t : Fin grid0.N, cond3 (grid0.coords t) ↔ 20 ≤ t.val)

/-- The row offset of the first-pass store into the second scratch: 512 times the second grid coordinate. -/
theorem off1_eq : ∀ t : Fin cfg0.N, k0_off1 (grid0.coords t) = ![512 * (t.val % 20), 0] :=
  (by decide +kernel : ∀ t : Fin grid0.N, k0_off1 (grid0.coords t) = ![512 * (t.val % 20), 0])

theorem zero2 : (![0, 0] : Fin 2 → Nat) = fun _ => 0 := funext fun a => by fin_cases a <;> rfl

/-! ## A store of 512 rows into the 10240-row scratch -/

/-- The second scratch after 512 rows `pay` are stored at the point's row offset over contents `xs2`. -/
def s2Upd (i : grid0.Coords) (hc2 : cond2 i) (arg10 : Memref sig .tc .vmem S10240x128 .f32) (harg10 : arg10.IsWhole)
    (xs2 : Vec F S10240x128 .f32) (pay : FVec F S512x128 .f32) : Vec F S10240x128 .f32 :=
  arg10.view.read (Elt F) (arg10.view.writes (Elt F) (harg10.unread xs2)
    [⟨Rect.unit (s := S10240x128) (k0_off1 i) S512x128.size (k0_off1_inb i hc2), pay⟩])

/-- Inside the stored rows the scratch holds the payload, row by row. -/
theorem s2Upd_in (i : grid0.Coords) (hc2 : cond2 i) (arg10 : Memref sig .tc .vmem S10240x128 .f32) (harg10 : arg10.IsWhole)
    (xs2 : Vec F S10240x128 .f32) (pay : FVec F S512x128 .f32) (o : ℕ) (ho : k0_off1 i = ![o, 0])
    (y : S10240x128.Idx) (x : S512x128.Idx) (h0 : (y 0).val = o + (x 0).val) (h1 : (y 1).val = (x 1).val) :
    s2Upd i hc2 arg10 harg10 xs2 pay y = pay x :=
  View.read_writes_cons_rows_of_mem (d := ![10240, 128]) arg10.view (harg10.unread xs2) (k0_off1_inb i hc2) pay [] y x ho h0 h1

/-- Outside them it holds what it held. -/
theorem s2Upd_out (i : grid0.Coords) (hc2 : cond2 i) (arg10 : Memref sig .tc .vmem S10240x128 .f32) (harg10 : arg10.IsWhole)
    (xs2 : Vec F S10240x128 .f32) (pay : FVec F S512x128 .f32) (o : ℕ) (ho : k0_off1 i = ![o, 0])
    (y : S10240x128.Idx) (h : (y 0).val < o ∨ o + 512 ≤ (y 0).val) :
    s2Upd i hc2 arg10 harg10 xs2 pay y = xs2 y := by
  unfold s2Upd
  rw [View.read_writes_cons_rows_of_not_mem (d := ![10240, 128]) (W := 512) arg10.view (harg10.unread xs2) (k0_off1_inb i hc2) pay [] y ho rfl h,
    View.writes_nil, harg10.read_unread]

/-- A whole-buffer store leaves its payload. -/
theorem read_store_whole {S : Shape} (M : Memref sig .tc .vmem S .f32) (hM : M.IsWhole) {off : Fin S.rank → ℕ} (hz : off = fun _ => 0)
    (inb : ∀ a, off a + S.size a ≤ S.size a) (f : M.view.ty.Contents (Elt F)) (w : S.Idx → Elt F .f32) :
    M.view.read (Elt F) (M.view.writes (Elt F) f [⟨Rect.unit (s := S) off S.size inb, w⟩]) = w := by
  funext y
  exact View.read_writes_cons_unit_of_mem M.view f inb w [] y y hz (fun a => by simp)

/-- A whole-buffer load reads the contents. -/
theorem load_whole {S : Shape} (M : Memref sig .tc .vmem S .f32) (hM : M.IsWhole) {off : Fin S.rank → ℕ} (hz : off = fun _ => 0)
    (inb : ∀ a, off a + S.size a ≤ S.size a) (x : S.Idx → Elt F .f32) :
    M.view.readAt (Elt F) (Rect.unit (s := S) off S.size inb).toLoadRect (hM.unread x) = x := by
  rw [View.readAt_eq_ld, hM.read_unread, View.ld_unit_zero hz]

/-- The first 10000 rows of the second scratch, as the second pass loads them. -/
def s2Head (xs2 : Vec F S10240x128 .f32) : Vec F S10000x128 .f32 :=
  View.ld xs2 (Rect.unit (s := S10240x128) ![0, 0] S10000x128.size inb_S10240x128_S10000x128_0_0)

theorem load_head (M : Memref sig .tc .vmem S10240x128 .f32) (hM : M.IsWhole) (xs2 : Vec F S10240x128 .f32) :
    M.view.readAt (Elt F) (Rect.unit (s := S10240x128) ![0, 0] S10000x128.size inb_S10240x128_S10000x128_0_0).toLoadRect (hM.unread xs2) = s2Head xs2 := by
  rw [View.readAt_eq_ld, hM.read_unread]; rfl

end Cert.Kernel.Hand

end
-- ==== Proof.KRunMid.lean ====
/-
  The body at a point of the first pass other than the first, for any float interpretation.
-/
import proofs.«139752_g42614665511374_cont_8to1_b_1813_10_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- A point of the first pass other than the first: only the second part runs. The adjacency stripe, the first
    scratch, the bias row and the second weight matrix are read and keep their contents; the second scratch
    gets the 512 computed rows at the point's offset. -/
theorem run_mid (c : Dev nD) (i : grid0.Coords) (arg2 : Memref sig .tc .vmem S10000x128 .f32) (harg2 : arg2.IsWhole) (arg3 : Memref sig .tc .vmem S512x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S10000x128 .f32) (harg9 : arg9.IsWhole) (arg10 : Memref sig .tc .vmem S10240x128 .f32) (harg10 : arg10.IsWhole)
    (hc1 : ¬cond1 i) (hc2 : cond2 i) (hc3 : ¬cond3 i)
    (xadj : Vec F S512x10000 .f32) (xs1 : Vec F S10000x128 .f32) (xb1 : Vec F S1x128 .f32) (xw2 : Vec F S128x128 .f32) (xs2 : Vec F S10240x128 .f32)
    (E : Set ℕ) (K : PUnit → sProp 𝕄) :
    iprop(owns (c : Thread nD τ) arg3 fullShare xadj ∗ owns (c : Thread nD τ) arg9 fullShare xs1 ∗ owns (c : Thread nD τ) arg5 fullShare xb1 ∗ owns (c : Thread nD τ) arg6 fullShare xw2 ∗ owns (c : Thread nD τ) arg10 fullShare xs2
        ∗ (iprop(owns (c : Thread nD τ) arg3 fullShare xadj ∗ owns (c : Thread nD τ) arg9 fullShare xs1 ∗ owns (c : Thread nD τ) arg5 fullShare xb1 ∗ owns (c : Thread nD τ) arg6 fullShare xw2
            ∗ owns (c : Thread nD τ) arg10 fullShare (s2Upd i hc2 arg10 harg10 xs2 (k0_pay2 xadj xs1 xb1 xw2))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f3, %hf3, H3⟩, ⟨%f9, %hf9, H9⟩, ⟨%f5, %hf5, H5⟩, ⟨%f6, %hf6, H6⟩, ⟨%f10, %hf10, H10⟩, Hk⟩
  obtain rfl := harg3.eq_unread hf3; obtain rfl := harg9.eq_unread hf9; obtain rfl := harg5.eq_unread hf5; obtain rfl := harg6.eq_unread hf6; obtain rfl := harg10.eq_unread hf10
  sl_exec (disch := first | exact hc1 | exact hc2 | exact hc3)
  sl_step
  rw [load_whole arg3 harg3 zero2, load_whole arg9 harg9 zero2, load_whole arg5 harg5 zero2, load_whole arg6 harg6 zero2]
  iapply Hk
  isplitl [H3]
  · iexists _; isplitr; · ipureintro; exact hf3
    iexact H3
  isplitl [H9]
  · iexists _; isplitr; · ipureintro; exact hf9
    iexact H9
  isplitl [H5]
  · iexists _; isplitr; · ipureintro; exact hf5
    iexact H5
  isplitl [H6]
  · iexists _; isplitr; · ipureintro; exact hf6
    iexact H6
  iexists _; isplitr; · ipureintro; rfl
  iexact H10

end Cert.Kernel.Hand

end
-- ==== Proof.KRunLate.lean ====
/-
  The body at a point of the second pass, for any float interpretation.
-/
import proofs.«139752_g42614665511374_cont_8to1_b_1813_10_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
set_option maxHeartbeats 2000000 in
/-- A point of the second pass: only the third part runs. The stripe, the second scratch and the second bias
    row are read and keep their contents; the output's staging buffer gets the 512 computed rows. -/
theorem run_late (c : Dev nD) (i : grid0.Coords) (arg2 : Memref sig .tc .vmem S10000x128 .f32) (harg2 : arg2.IsWhole) (arg3 : Memref sig .tc .vmem S512x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S10000x128 .f32) (harg9 : arg9.IsWhole) (arg10 : Memref sig .tc .vmem S10240x128 .f32) (harg10 : arg10.IsWhole)
    (hc1 : ¬cond1 i) (hc2 : ¬cond2 i) (hc3 : cond3 i)
    (xadj : Vec F S512x10000 .f32) (xb2 : Vec F S1x128 .f32) (xs2 : Vec F S10240x128 .f32) (xo : Vec F S512x128 .f32)
    (E : Set ℕ) (K : PUnit → sProp 𝕄) :
    iprop(owns (c : Thread nD τ) arg3 fullShare xadj ∗ owns (c : Thread nD τ) arg10 fullShare xs2 ∗ owns (c : Thread nD τ) arg7 fullShare xb2 ∗ owns (c : Thread nD τ) arg8 fullShare xo
        ∗ (iprop(owns (c : Thread nD τ) arg3 fullShare xadj ∗ owns (c : Thread nD τ) arg10 fullShare xs2 ∗ owns (c : Thread nD τ) arg7 fullShare xb2
            ∗ owns (c : Thread nD τ) arg8 fullShare (k0_pay3 xadj (s2Head xs2) xb2)) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f3, %hf3, H3⟩, ⟨%f10, %hf10, H10⟩, ⟨%f7, %hf7, H7⟩, ⟨%f8, %hf8, H8⟩, Hk⟩
  obtain rfl := harg3.eq_unread hf3; obtain rfl := harg10.eq_unread hf10; obtain rfl := harg7.eq_unread hf7; obtain rfl := harg8.eq_unread hf8
  sl_exec (disch := first | exact hc1 | exact hc2 | exact hc3)
  sl_step
  rw [load_whole arg3 harg3 zero2, load_head arg10 harg10, load_whole arg7 harg7 zero2]
  iapply Hk
  isplitl [H3]
  · iexists _; isplitr; · ipureintro; exact hf3
    iexact H3
  isplitl [H10]
  · iexists _; isplitr; · ipureintro; exact hf10
    iexact H10
  isplitl [H7]
  · iexists _; isplitr; · ipureintro; exact hf7
    iexact H7
  iexists _; isplitr
  swap; · iexact H8
  ipureintro; exact read_store_whole arg8 harg8 zero2 _ _ _

end Cert.Kernel.Hand

end
-- ==== Proof.KRunFirst.lean ====
/-
  The body at the first grid point, for any float interpretation.
-/
import proofs.«139752_g42614665511374_cont_8to1_b_1813_10_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The first point: the first and the second part run. The feature matrix and both weight matrices, the stripe
    and the bias row are read and keep their contents; the first scratch gets the whole product, and the second
    scratch the 512 rows computed from that product at offset zero. -/
theorem run_first (c : Dev nD) (i : grid0.Coords) (arg2 : Memref sig .tc .vmem S10000x128 .f32) (harg2 : arg2.IsWhole) (arg3 : Memref sig .tc .vmem S512x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S10000x128 .f32) (harg9 : arg9.IsWhole) (arg10 : Memref sig .tc .vmem S10240x128 .f32) (harg10 : arg10.IsWhole)
    (hc1 : cond1 i) (hc2 : cond2 i) (hc3 : ¬cond3 i)
    (xx : Vec F S10000x128 .f32) (xw1 : Vec F S128x128 .f32) (xadj : Vec F S512x10000 .f32) (xs1 : Vec F S10000x128 .f32) (xb1 : Vec F S1x128 .f32) (xw2 : Vec F S128x128 .f32) (xs2 : Vec F S10240x128 .f32)
    (E : Set ℕ) (K : PUnit → sProp 𝕄) :
    iprop(owns (c : Thread nD τ) arg2 fullShare xx ∗ owns (c : Thread nD τ) arg4 fullShare xw1 ∗ owns (c : Thread nD τ) arg3 fullShare xadj ∗ owns (c : Thread nD τ) arg9 fullShare xs1 ∗ owns (c : Thread nD τ) arg5 fullShare xb1 ∗ owns (c : Thread nD τ) arg6 fullShare xw2 ∗ owns (c : Thread nD τ) arg10 fullShare xs2
        ∗ (iprop(owns (c : Thread nD τ) arg2 fullShare xx ∗ owns (c : Thread nD τ) arg4 fullShare xw1 ∗ owns (c : Thread nD τ) arg3 fullShare xadj ∗ owns (c : Thread nD τ) arg9 fullShare (k0_pay1 xx xw1) ∗ owns (c : Thread nD τ) arg5 fullShare xb1 ∗ owns (c : Thread nD τ) arg6 fullShare xw2
            ∗ owns (c : Thread nD τ) arg10 fullShare (s2Upd i hc2 arg10 harg10 xs2 (k0_pay2 xadj (k0_pay1 xx xw1) xb1 xw2))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f4, %hf4, H4⟩, ⟨%f3, %hf3, H3⟩, ⟨%f9, %hf9, H9⟩, ⟨%f5, %hf5, H5⟩, ⟨%f6, %hf6, H6⟩, ⟨%f10, %hf10, H10⟩, Hk⟩
  obtain rfl := harg2.eq_unread hf2; obtain rfl := harg4.eq_unread hf4; obtain rfl := harg3.eq_unread hf3; obtain rfl := harg9.eq_unread hf9; obtain rfl := harg5.eq_unread hf5; obtain rfl := harg6.eq_unread hf6; obtain rfl := harg10.eq_unread hf10
  sl_exec (disch := first | exact hc1 | exact hc2 | exact hc3)
  sl_step
  sl_unfold_words
  rw [View.readCov_unit_zero arg9.view zero2, load_whole arg2 harg2 zero2, load_whole arg4 harg4 zero2, load_whole arg3 harg3 zero2,
    load_whole arg5 harg5 zero2, load_whole arg6 harg6 zero2]
  iapply Hk
  isplitl [H2]
  · iexists _; isplitr; · ipureintro; exact hf2
    iexact H2
  isplitl [H4]
  · iexists _; isplitr; · ipureintro; exact hf4
    iexact H4
  isplitl [H3]
  · iexists _; isplitr; · ipureintro; exact hf3
    iexact H3
  isplitl [H9]
  · iexists _; isplitr
    swap; · iexact H9
    ipureintro; exact read_store_whole arg9 harg9 zero2 _ _ _
  isplitl [H5]
  · iexists _; isplitr; · ipureintro; exact hf5
    iexact H5
  isplitl [H6]
  · iexists _; isplitr; · ipureintro; exact hf6
    iexact H6
  iexists _; isplitr
  swap; · iexact H10
  ipureintro; rfl

end Cert.Kernel.Hand

end
-- ==== Proof.KFrame.lean ====
/-
  The frame of the program: it runs to the end without a fault and leaves its six argument arrays unchanged,
  for any float interpretation. Nothing about the computed values is needed for this, so the adjacency stripe's
  staging buffer and the output's are not followed.
-/
import proofs.«139752_g42614665511374_cont_8to1_b_1813_10_alg».proof.Proof.KRunMid
import proofs.«139752_g42614665511374_cont_8to1_b_1813_10_alg».proof.Proof.KRunLate
import proofs.«139752_g42614665511374_cont_8to1_b_1813_10_alg».proof.Proof.KRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The frame, with nothing said of the values

For the frame claim alone nothing the body computes matters: the adjacency stripe's buffer and the output's are
handed to the body at any contents and taken back at any contents, the five small operands are found at their
blocks and left there, and both scratch buffers may hold anything between points. -/

variable (m : (ℓ : Loc nD τ sig) → Buf (Elt F) ℓ) (ρ : Dev nD → PrngReg)

/-- The windows whose staging contents the frame does not follow: the adjacency stripe (1) and the output (6). -/
abbrev fgt : Fin 7 → Bool := fun | 0 => false | 1 => true | 2 => false | 3 => false | 4 => false | 5 => false | 6 => true | ⟨_ + 7, h⟩ => absurd h (Nat.not_lt.2 (Nat.le_add_left _ _))

/-- The proof data: the arrays as the region finds them; each small operand's buffer at its block after every
    point; a placeholder for the two windows not followed; the scratch buffers at anything throughout. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => fun _ => Scalar.ofBits .f32 0#32
    | ⟨2, _⟩ => iblk m c 2 t
    | ⟨3, _⟩ => iblk m c 3 t
    | ⟨4, _⟩ => iblk m c 4 t
    | ⟨5, _⟩ => iblk m c 5 t
    | ⟨6, _⟩ => fun _ => Scalar.ofBits .f32 0#32
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter0 (c : Dev nD) (t : Fin cfg0.N) : (fdats m 0 c).after 0 t = iblk m c 0 t := by dsimp only [fdats]
theorem fafter2 (c : Dev nD) (t : Fin cfg0.N) : (fdats m 0 c).after 2 t = iblk m c 2 t := by dsimp only [fdats]
theorem fafter3 (c : Dev nD) (t : Fin cfg0.N) : (fdats m 0 c).after 3 t = iblk m c 3 t := by dsimp only [fdats]
theorem fafter4 (c : Dev nD) (t : Fin cfg0.N) : (fdats m 0 c).after 4 t = iblk m c 4 t := by dsimp only [fdats]
theorem fafter5 (c : Dev nD) (t : Fin cfg0.N) : (fdats m 0 c).after 5 t = iblk m c 5 t := by dsimp only [fdats]

theorem fbefore0 (c : Dev nD) (t : Fin cfg0.N) (d) : (fdats m 0 c).before 0 t d = iblk m c 0 t :=
  before0_0_of m (fdats m 0 c) (fA_eq m c 0) (fafter0 m c) t d
theorem fbefore2 (c : Dev nD) (t : Fin cfg0.N) (d) : (fdats m 0 c).before 2 t d = iblk m c 2 t :=
  before0_2_of m (fdats m 0 c) (fA_eq m c 2) (fafter2 m c) t d
theorem fbefore3 (c : Dev nD) (t : Fin cfg0.N) (d) : (fdats m 0 c).before 3 t d = iblk m c 3 t :=
  before0_3_of m (fdats m 0 c) (fA_eq m c 3) (fafter3 m c) t d
theorem fbefore4 (c : Dev nD) (t : Fin cfg0.N) (d) : (fdats m 0 c).before 4 t d = iblk m c 4 t :=
  before0_4_of m (fdats m 0 c) (fA_eq m c 4) (fafter4 m c) t d
theorem fbefore5 (c : Dev nD) (t : Fin cfg0.N) (d) : (fdats m 0 c).before 5 t d = iblk m c 5 t :=
  before0_5_of m (fdats m 0 c) (fA_eq m c 5) (fafter5 m c) t d

/-- The class invariant with the two scratch buffers as owned memrefs. -/
theorem PhiA_eq (c : Dev nD) :
    (Pipeline.ΦA spec0 c : sProp 𝕄)
      = iprop(((∃ d, owns (c : Thread nD τ) (Memref.whole cc0_scratch0 : Memref sig .tc .vmem S10000x128 .f32) fullShare d)
          ∗ (∃ d, owns (c : Thread nD τ) (Memref.whole cc0_scratch1 : Memref sig .tc .vmem S10240x128 .f32) fullShare d)) ∗ (∃ r, prngReg c r)) := by
  unfold Pipeline.ΦA; rw [scopedRest0_eq]; simp only [owns_whole]; try rfl

set_option maxHeartbeats 4000000 in
/-- The body obligation: at the first point the first case's run, at the other points of the first pass the
    second's, in the second pass the third's; each hands every buffer back, the five small operands unchanged. -/
theorem fbody (c : Dev nD) : BodyObligationLoose (fdats (F := F) m 0 c) (defs₀ (F := F)) Variants.none () Set.univ fgt := fun t => by
  rw [bigSep_W0, bigSep_W0]
  simp only
  rw [show (fdats m 0 c).Φ t.succ = Pipeline.ΦA spec0 c from rfl, show (fdats m 0 c).Φ t.castSucc = Pipeline.ΦA spec0 c from rfl,
    show (fdats m 0 c).owesAt () t.succ = (fdats m 0 c).owesAt () t.castSucc from rfl, PhiA_eq]
  simp only [fbefore0, fbefore2, fbefore3, fbefore4, fbefore5, fafter0, fafter2, fafter3, fafter4, fafter5]
  iintro ⟨⟨⟨⟨%e9, HS1⟩, ⟨%e10, HS2⟩⟩, Hg⟩, Ho, ⟨%d0, H0⟩, ⟨%x1, H1⟩, ⟨%d2, H2⟩, ⟨%d3, H3⟩, ⟨%d4, H4⟩, ⟨%d5, H5⟩, ⟨%x6, H6⟩⟩
  by_cases h2 : t.val < 20
  · by_cases h1 : t.val = 0
    · iapply (run_first (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) ((hcond1 t).mpr h1) ((hcond2 t).mpr h2)
        (fun h => by have := (hcond3 t).mp h; omega) _ _ _ _ _ _ _ Set.univ _)
      isplitl [H0]; · iexact H0
      isplitl [H2]; · iexact H2
      isplitl [H1]; · iexact H1
      isplitl [HS1]; · iexact HS1
      isplitl [H3]; · iexact H3
      isplitl [H4]; · iexact H4
      isplitl [HS2]; · iexact HS2
      iintro ⟨H0, H2, H1, HS1, H3, H4, HS2⟩
      isplitl [HS1 HS2 Hg]
      · isplitl [HS1 HS2]
        · isplitl [HS1]
          · iexists _; iexact HS1
          · iexists _; iexact HS2
        iexact Hg
      isplitl [Ho]; · iexact Ho
      isplitl [H0]; · iexact H0
      isplitl [H1]; · iexists _; iexact H1
      isplitl [H2]; · iexact H2
      isplitl [H3]; · iexact H3
      isplitl [H4]; · iexact H4
      isplitl [H5]; · iexact H5
      iexists _; iexact H6
    · iapply (run_mid (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (fun h => h1 ((hcond1 t).mp h)) ((hcond2 t).mpr h2)
        (fun h => by have := (hcond3 t).mp h; omega) _ _ _ _ _ Set.univ _)
      isplitl [H1]; · iexact H1
      isplitl [HS1]; · iexact HS1
      isplitl [H3]; · iexact H3
      isplitl [H4]; · iexact H4
      isplitl [HS2]; · iexact HS2
      iintro ⟨H1, HS1, H3, H4, HS2⟩
      isplitl [HS1 HS2 Hg]
      · isplitl [HS1 HS2]
        · isplitl [HS1]
          · iexists _; iexact HS1
          · iexists _; iexact HS2
        iexact Hg
      isplitl [Ho]; · iexact Ho
      isplitl [H0]; · iexact H0
      isplitl [H1]; · iexists _; iexact H1
      isplitl [H2]; · iexact H2
      isplitl [H3]; · iexact H3
      isplitl [H4]; · iexact H4
      isplitl [H5]; · iexact H5
      iexists _; iexact H6
  · iapply (run_late (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (fun h => by have := (hcond1 t).mp h; omega)
      (fun h => h2 ((hcond2 t).mp h)) ((hcond3 t).mpr (by omega)) _ _ _ _ Set.univ _)
    isplitl [H1]; · iexact H1
    isplitl [HS2]; · iexact HS2
    isplitl [H5]; · iexact H5
    isplitl [H6]; · iexact H6
    iintro ⟨H1, HS2, H5, H6⟩
    isplitl [HS1 HS2 Hg]
    · isplitl [HS1 HS2]
      · isplitl [HS1]
        · iexists _; iexact HS1
        · iexists _; iexact HS2
      iexact Hg
    isplitl [Ho]; · iexact Ho
    isplitl [H0]; · iexact H0
    isplitl [H1]; · iexists _; iexact H1
    isplitl [H2]; · iexact H2
    isplitl [H3]; · iexact H3
    isplitl [H4]; · iexact H4
    isplitl [H5]; · iexact H5
    iexists _; iexact H6

set_option backward.isDefEq.respectTransparency.types false in
/-- Every weakly fair execution of the program terminates without a fault; every array a window stages ends at
    contents the proof data allows (an input at what it held), every other unscoped buffer at what it held when
    the region was entered. -/
theorem frun_main : θ_run defs (onTc (τ := τ) (main (F := F))) (s₀ m ρ)
    (Pipeline.RDat.FramePost cfg0 (fun c => (fdats m 0 c).toRForget fgt) (V m)) :=
  Pipeline.RDat.θ_run_frame cfgs (0 : Fin 1) launch0 defs₀ Variants.none (fun c => (fdats m 0 c).toRForget fgt) m ρ main
    (hbody := fun c => (fbody m c).toRForget) (hshare := fun c => (fdats m 0 c).share_full fun _ => rfl)
    (howed := fun _ _ => rfl) (V := V m) (hmain := hmain m Variants.none) (hA := fun c w => fA_eq m c w) (hΦ := fun _ _ => rfl)

/-- The frame claim's post: the six argument arrays end as they began. Four of them are staged inputs, which
    the run leaves at their entry contents; the two bias vectors reach the kernel only through reshaped copies
    and bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    have a0 := (h c).1 0; have a1 := (h c).1 1; have a2 := (h c).1 2; have a4 := (h c).1 4
    rw [Pipeline.RDat.ArrAt_in _ 0 rfl] at a0; rw [Pipeline.RDat.ArrAt_in _ 1 rfl] at a1
    rw [Pipeline.RDat.ArrAt_in _ 2 rfl] at a2; rw [Pipeline.RDat.ArrAt_in _ 4 rfl] at a4
    exact ⟨a0.trans ((fA_eq m c 0).trans (V_main_arg0 m c)), a1.trans ((fA_eq m c 1).trans (V_main_arg1 m c)),
      a2.trans ((fA_eq m c 2).trans (V_main_arg2 m c)),
      ((h c).2 main_arg3 (Pipeline.mem_restRefs_of main_arg3 (by decide) (by decide))).trans (V_main_arg3 m c),
      a4.trans ((fA_eq m c 4).trans (V_main_arg4 m c)),
      ((h c).2 main_arg5 (Pipeline.mem_restRefs_of main_arg5 (by decide) (by decide))).trans (V_main_arg5 m c)⟩) (frun_main m ρ)

end Cert.Kernel.Hand

end
-- ==== Proof.KiBase.lean ====
/-
  The kernel body run once, symbolically, for any float interpretation.

  The body has three guarded parts. At the very first grid point it stores the product of the feature matrix
  and the first weight matrix whole into the first scratch buffer. At every point of the first pass (the
  first grid coordinate is 0) it multiplies the staged 512-row stripe of the adjacency matrix by that scratch,
  adds the first bias row, clamps below at zero, multiplies by the second weight matrix and stores the 512
  rows at row offset 512·j of the second scratch buffer (j the second grid coordinate). At every point of the
  second pass it multiplies the staged stripe by the first 10000 rows of the second scratch, adds the second
  bias row, applies the logistic function and stores the 512 rows whole into the output's staging buffer.

  Each theorem below says, for one of the three combinations of guards the grid meets, what the buffers the
  body touches hold afterwards as a function of what they held before; nothing is assumed about the contents.
-/
import proofs.«139752_g42614665511374_cont_8to1_b_1813_10_alg».proof.Proof.Gen.KernelIdeal.Frame
import proofs.«139752_g42614665511374_cont_8to1_b_1813_10_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The three guards, and where on the grid each holds -/

/-- The guard of the first part: both grid coordinates are zero. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The guard of the second part: the first grid coordinate is zero (the first pass). -/
abbrev cond2 (i : grid0.Coords) : Prop := k0_cond2 i = 1#1
/-- The guard of the third part: the first grid coordinate is one (the second pass). -/
abbrev cond3 (i : grid0.Coords) : Prop := k0_cond3 i = 1#1

/-- The grid is 2 × 20, walked row-major: point `t` has coordinates `(t / 20, t % 20)`. So the first guard holds
    at point 0 only, the second at points 0‥19, the third at points 20‥39. -/
theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 20 :=
  (by decide +kernel : ∀ t : Fin grid0.N, cond2 (grid0.coords t) ↔ t.val < 20)
theorem hcond3 : ∀ t : Fin cfg0.N, cond3 (grid0.coords t) ↔ 20 ≤ t.val :=
  (by decide +kernel : ∀ t : Fin grid0.N, cond3 (grid0.coords t) ↔ 20 ≤ t.val)

/-- The row offset of the first-pass store into the second scratch: 512 times the second grid coordinate. -/
theorem off1_eq : ∀ t : Fin cfg0.N, k0_off1 (grid0.coords t) = ![512 * (t.val % 20), 0] :=
  (by decide +kernel : ∀ t : Fin grid0.N, k0_off1 (grid0.coords t) = ![512 * (t.val % 20), 0])

theorem zero2 : (![0, 0] : Fin 2 → Nat) = fun _ => 0 := funext fun a => by fin_cases a <;> rfl

/-! ## A store of 512 rows into the 10240-row scratch -/

/-- The second scratch after 512 rows `pay` are stored at the point's row offset over contents `xs2`. -/
def s2Upd (i : grid0.Coords) (hc2 : cond2 i) (arg10 : Memref sig .tc .vmem S10240x128 .f32) (harg10 : arg10.IsWhole)
    (xs2 : Vec F S10240x128 .f32) (pay : FVec F S512x128 .f32) : Vec F S10240x128 .f32 :=
  arg10.view.read (Elt F) (arg10.view.writes (Elt F) (harg10.unread xs2)
    [⟨Rect.unit (s := S10240x128) (k0_off1 i) S512x128.size (k0_off1_inb i hc2), pay⟩])

/-- Inside the stored rows the scratch holds the payload, row by row. -/
theorem s2Upd_in (i : grid0.Coords) (hc2 : cond2 i) (arg10 : Memref sig .tc .vmem S10240x128 .f32) (harg10 : arg10.IsWhole)
    (xs2 : Vec F S10240x128 .f32) (pay : FVec F S512x128 .f32) (o : ℕ) (ho : k0_off1 i = ![o, 0])
    (y : S10240x128.Idx) (x : S512x128.Idx) (h0 : (y 0).val = o + (x 0).val) (h1 : (y 1).val = (x 1).val) :
    s2Upd i hc2 arg10 harg10 xs2 pay y = pay x :=
  View.read_writes_cons_rows_of_mem (d := ![10240, 128]) arg10.view (harg10.unread xs2) (k0_off1_inb i hc2) pay [] y x ho h0 h1

/-- Outside them it holds what it held. -/
theorem s2Upd_out (i : grid0.Coords) (hc2 : cond2 i) (arg10 : Memref sig .tc .vmem S10240x128 .f32) (harg10 : arg10.IsWhole)
    (xs2 : Vec F S10240x128 .f32) (pay : FVec F S512x128 .f32) (o : ℕ) (ho : k0_off1 i = ![o, 0])
    (y : S10240x128.Idx) (h : (y 0).val < o ∨ o + 512 ≤ (y 0).val) :
    s2Upd i hc2 arg10 harg10 xs2 pay y = xs2 y := by
  unfold s2Upd
  rw [View.read_writes_cons_rows_of_not_mem (d := ![10240, 128]) (W := 512) arg10.view (harg10.unread xs2) (k0_off1_inb i hc2) pay [] y ho rfl h,
    View.writes_nil, harg10.read_unread]

/-- A whole-buffer store leaves its payload. -/
theorem read_store_whole {S : Shape} (M : Memref sig .tc .vmem S .f32) (hM : M.IsWhole) {off : Fin S.rank → ℕ} (hz : off = fun _ => 0)
    (inb : ∀ a, off a + S.size a ≤ S.size a) (f : M.view.ty.Contents (Elt F)) (w : S.Idx → Elt F .f32) :
    M.view.read (Elt F) (M.view.writes (Elt F) f [⟨Rect.unit (s := S) off S.size inb, w⟩]) = w := by
  funext y
  exact View.read_writes_cons_unit_of_mem M.view f inb w [] y y hz (fun a => by simp)

/-- A whole-buffer load reads the contents. -/
theorem load_whole {S : Shape} (M : Memref sig .tc .vmem S .f32) (hM : M.IsWhole) {off : Fin S.rank → ℕ} (hz : off = fun _ => 0)
    (inb : ∀ a, off a + S.size a ≤ S.size a) (x : S.Idx → Elt F .f32) :
    M.view.readAt (Elt F) (Rect.unit (s := S) off S.size inb).toLoadRect (hM.unread x) = x := by
  rw [View.readAt_eq_ld, hM.read_unread, View.ld_unit_zero hz]

/-- The first 10000 rows of the second scratch, as the second pass loads them. -/
def s2Head (xs2 : Vec F S10240x128 .f32) : Vec F S10000x128 .f32 :=
  View.ld xs2 (Rect.unit (s := S10240x128) ![0, 0] S10000x128.size inb_S10240x128_S10000x128_0_0)

theorem load_head (M : Memref sig .tc .vmem S10240x128 .f32) (hM : M.IsWhole) (xs2 : Vec F S10240x128 .f32) :
    M.view.readAt (Elt F) (Rect.unit (s := S10240x128) ![0, 0] S10000x128.size inb_S10240x128_S10000x128_0_0).toLoadRect (hM.unread xs2) = s2Head xs2 := by
  rw [View.readAt_eq_ld, hM.read_unread]; rfl

end Cert.KernelIdeal.Hand

end
-- ==== Proof.KiRunMid.lean ====
/-
  The body at a point of the first pass other than the first, for any float interpretation.
-/
import proofs.«139752_g42614665511374_cont_8to1_b_1813_10_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- A point of the first pass other than the first: only the second part runs. The adjacency stripe, the first
    scratch, the bias row and the second weight matrix are read and keep their contents; the second scratch
    gets the 512 computed rows at the point's offset. -/
theorem run_mid (c : Dev nD) (i : grid0.Coords) (arg2 : Memref sig .tc .vmem S10000x128 .f32) (harg2 : arg2.IsWhole) (arg3 : Memref sig .tc .vmem S512x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S10000x128 .f32) (harg9 : arg9.IsWhole) (arg10 : Memref sig .tc .vmem S10240x128 .f32) (harg10 : arg10.IsWhole)
    (hc1 : ¬cond1 i) (hc2 : cond2 i) (hc3 : ¬cond3 i)
    (xadj : Vec F S512x10000 .f32) (xs1 : Vec F S10000x128 .f32) (xb1 : Vec F S1x128 .f32) (xw2 : Vec F S128x128 .f32) (xs2 : Vec F S10240x128 .f32)
    (E : Set ℕ) (K : PUnit → sProp 𝕄) :
    iprop(owns (c : Thread nD τ) arg3 fullShare xadj ∗ owns (c : Thread nD τ) arg9 fullShare xs1 ∗ owns (c : Thread nD τ) arg5 fullShare xb1 ∗ owns (c : Thread nD τ) arg6 fullShare xw2 ∗ owns (c : Thread nD τ) arg10 fullShare xs2
        ∗ (iprop(owns (c : Thread nD τ) arg3 fullShare xadj ∗ owns (c : Thread nD τ) arg9 fullShare xs1 ∗ owns (c : Thread nD τ) arg5 fullShare xb1 ∗ owns (c : Thread nD τ) arg6 fullShare xw2
            ∗ owns (c : Thread nD τ) arg10 fullShare (s2Upd i hc2 arg10 harg10 xs2 (k0_pay2 xadj xs1 xb1 xw2))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f3, %hf3, H3⟩, ⟨%f9, %hf9, H9⟩, ⟨%f5, %hf5, H5⟩, ⟨%f6, %hf6, H6⟩, ⟨%f10, %hf10, H10⟩, Hk⟩
  obtain rfl := harg3.eq_unread hf3; obtain rfl := harg9.eq_unread hf9; obtain rfl := harg5.eq_unread hf5; obtain rfl := harg6.eq_unread hf6; obtain rfl := harg10.eq_unread hf10
  sl_exec (disch := first | exact hc1 | exact hc2 | exact hc3)
  sl_step
  rw [load_whole arg3 harg3 zero2, load_whole arg9 harg9 zero2, load_whole arg5 harg5 zero2, load_whole arg6 harg6 zero2]
  iapply Hk
  isplitl [H3]
  · iexists _; isplitr; · ipureintro; exact hf3
    iexact H3
  isplitl [H9]
  · iexists _; isplitr; · ipureintro; exact hf9
    iexact H9
  isplitl [H5]
  · iexists _; isplitr; · ipureintro; exact hf5
    iexact H5
  isplitl [H6]
  · iexists _; isplitr; · ipureintro; exact hf6
    iexact H6
  iexists _; isplitr; · ipureintro; rfl
  iexact H10

end Cert.KernelIdeal.Hand

end
-- ==== Proof.KiRunLate.lean ====
/-
  The body at a point of the second pass, for any float interpretation.
-/
import proofs.«139752_g42614665511374_cont_8to1_b_1813_10_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
set_option maxHeartbeats 2000000 in
/-- A point of the second pass: only the third part runs. The stripe, the second scratch and the second bias
    row are read and keep their contents; the output's staging buffer gets the 512 computed rows. -/
theorem run_late (c : Dev nD) (i : grid0.Coords) (arg2 : Memref sig .tc .vmem S10000x128 .f32) (harg2 : arg2.IsWhole) (arg3 : Memref sig .tc .vmem S512x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S10000x128 .f32) (harg9 : arg9.IsWhole) (arg10 : Memref sig .tc .vmem S10240x128 .f32) (harg10 : arg10.IsWhole)
    (hc1 : ¬cond1 i) (hc2 : ¬cond2 i) (hc3 : cond3 i)
    (xadj : Vec F S512x10000 .f32) (xb2 : Vec F S1x128 .f32) (xs2 : Vec F S10240x128 .f32) (xo : Vec F S512x128 .f32)
    (E : Set ℕ) (K : PUnit → sProp 𝕄) :
    iprop(owns (c : Thread nD τ) arg3 fullShare xadj ∗ owns (c : Thread nD τ) arg10 fullShare xs2 ∗ owns (c : Thread nD τ) arg7 fullShare xb2 ∗ owns (c : Thread nD τ) arg8 fullShare xo
        ∗ (iprop(owns (c : Thread nD τ) arg3 fullShare xadj ∗ owns (c : Thread nD τ) arg10 fullShare xs2 ∗ owns (c : Thread nD τ) arg7 fullShare xb2
            ∗ owns (c : Thread nD τ) arg8 fullShare (k0_pay3 xadj (s2Head xs2) xb2)) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f3, %hf3, H3⟩, ⟨%f10, %hf10, H10⟩, ⟨%f7, %hf7, H7⟩, ⟨%f8, %hf8, H8⟩, Hk⟩
  obtain rfl := harg3.eq_unread hf3; obtain rfl := harg10.eq_unread hf10; obtain rfl := harg7.eq_unread hf7; obtain rfl := harg8.eq_unread hf8
  sl_exec (disch := first | exact hc1 | exact hc2 | exact hc3)
  sl_step
  rw [load_whole arg3 harg3 zero2, load_head arg10 harg10, load_whole arg7 harg7 zero2]
  iapply Hk
  isplitl [H3]
  · iexists _; isplitr; · ipureintro; exact hf3
    iexact H3
  isplitl [H10]
  · iexists _; isplitr; · ipureintro; exact hf10
    iexact H10
  isplitl [H7]
  · iexists _; isplitr; · ipureintro; exact hf7
    iexact H7
  iexists _; isplitr
  swap; · iexact H8
  ipureintro; exact read_store_whole arg8 harg8 zero2 _ _ _

end Cert.KernelIdeal.Hand

end
-- ==== Proof.KiRunFirst.lean ====
/-
  The body at the first grid point, for any float interpretation.
-/
import proofs.«139752_g42614665511374_cont_8to1_b_1813_10_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The first point: the first and the second part run. The feature matrix and both weight matrices, the stripe
    and the bias row are read and keep their contents; the first scratch gets the whole product, and the second
    scratch the 512 rows computed from that product at offset zero. -/
theorem run_first (c : Dev nD) (i : grid0.Coords) (arg2 : Memref sig .tc .vmem S10000x128 .f32) (harg2 : arg2.IsWhole) (arg3 : Memref sig .tc .vmem S512x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S10000x128 .f32) (harg9 : arg9.IsWhole) (arg10 : Memref sig .tc .vmem S10240x128 .f32) (harg10 : arg10.IsWhole)
    (hc1 : cond1 i) (hc2 : cond2 i) (hc3 : ¬cond3 i)
    (xx : Vec F S10000x128 .f32) (xw1 : Vec F S128x128 .f32) (xadj : Vec F S512x10000 .f32) (xs1 : Vec F S10000x128 .f32) (xb1 : Vec F S1x128 .f32) (xw2 : Vec F S128x128 .f32) (xs2 : Vec F S10240x128 .f32)
    (E : Set ℕ) (K : PUnit → sProp 𝕄) :
    iprop(owns (c : Thread nD τ) arg2 fullShare xx ∗ owns (c : Thread nD τ) arg4 fullShare xw1 ∗ owns (c : Thread nD τ) arg3 fullShare xadj ∗ owns (c : Thread nD τ) arg9 fullShare xs1 ∗ owns (c : Thread nD τ) arg5 fullShare xb1 ∗ owns (c : Thread nD τ) arg6 fullShare xw2 ∗ owns (c : Thread nD τ) arg10 fullShare xs2
        ∗ (iprop(owns (c : Thread nD τ) arg2 fullShare xx ∗ owns (c : Thread nD τ) arg4 fullShare xw1 ∗ owns (c : Thread nD τ) arg3 fullShare xadj ∗ owns (c : Thread nD τ) arg9 fullShare (k0_pay1 xx xw1) ∗ owns (c : Thread nD τ) arg5 fullShare xb1 ∗ owns (c : Thread nD τ) arg6 fullShare xw2
            ∗ owns (c : Thread nD τ) arg10 fullShare (s2Upd i hc2 arg10 harg10 xs2 (k0_pay2 xadj (k0_pay1 xx xw1) xb1 xw2))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f2, %hf2, H2⟩, ⟨%f4, %hf4, H4⟩, ⟨%f3, %hf3, H3⟩, ⟨%f9, %hf9, H9⟩, ⟨%f5, %hf5, H5⟩, ⟨%f6, %hf6, H6⟩, ⟨%f10, %hf10, H10⟩, Hk⟩
  obtain rfl := harg2.eq_unread hf2; obtain rfl := harg4.eq_unread hf4; obtain rfl := harg3.eq_unread hf3; obtain rfl := harg9.eq_unread hf9; obtain rfl := harg5.eq_unread hf5; obtain rfl := harg6.eq_unread hf6; obtain rfl := harg10.eq_unread hf10
  sl_exec (disch := first | exact hc1 | exact hc2 | exact hc3)
  sl_step
  sl_unfold_words
  rw [View.readCov_unit_zero arg9.view zero2, load_whole arg2 harg2 zero2, load_whole arg4 harg4 zero2, load_whole arg3 harg3 zero2,
    load_whole arg5 harg5 zero2, load_whole arg6 harg6 zero2]
  iapply Hk
  isplitl [H2]
  · iexists _; isplitr; · ipureintro; exact hf2
    iexact H2
  isplitl [H4]
  · iexists _; isplitr; · ipureintro; exact hf4
    iexact H4
  isplitl [H3]
  · iexists _; isplitr; · ipureintro; exact hf3
    iexact H3
  isplitl [H9]
  · iexists _; isplitr
    swap; · iexact H9
    ipureintro; exact read_store_whole arg9 harg9 zero2 _ _ _
  isplitl [H5]
  · iexists _; isplitr; · ipureintro; exact hf5
    iexact H5
  isplitl [H6]
  · iexists _; isplitr; · ipureintro; exact hf6
    iexact H6
  iexists _; isplitr
  swap; · iexact H10
  ipureintro; rfl

end Cert.KernelIdeal.Hand

end
-- ==== Proof.KiFrame.lean ====
/-
  The frame of the program: it runs to the end without a fault and leaves its six argument arrays unchanged,
  for any float interpretation. Nothing about the computed values is needed for this, so the adjacency stripe's
  staging buffer and the output's are not followed.
-/
import proofs.«139752_g42614665511374_cont_8to1_b_1813_10_alg».proof.Proof.KiRunMid
import proofs.«139752_g42614665511374_cont_8to1_b_1813_10_alg».proof.Proof.KiRunLate
import proofs.«139752_g42614665511374_cont_8to1_b_1813_10_alg».proof.Proof.KiRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The frame, with nothing said of the values

For the frame claim alone nothing the body computes matters: the adjacency stripe's buffer and the output's are
handed to the body at any contents and taken back at any contents, the five small operands are found at their
blocks and left there, and both scratch buffers may hold anything between points. -/

variable (m : (ℓ : Loc nD τ sig) → Buf (Elt F) ℓ) (ρ : Dev nD → PrngReg)

/-- The windows whose staging contents the frame does not follow: the adjacency stripe (1) and the output (6). -/
abbrev fgt : Fin 7 → Bool := fun | 0 => false | 1 => true | 2 => false | 3 => false | 4 => false | 5 => false | 6 => true | ⟨_ + 7, h⟩ => absurd h (Nat.not_lt.2 (Nat.le_add_left _ _))

/-- The proof data: the arrays as the region finds them; each small operand's buffer at its block after every
    point; a placeholder for the two windows not followed; the scratch buffers at anything throughout. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => fun _ => Scalar.ofBits .f32 0#32
    | ⟨2, _⟩ => iblk m c 2 t
    | ⟨3, _⟩ => iblk m c 3 t
    | ⟨4, _⟩ => iblk m c 4 t
    | ⟨5, _⟩ => iblk m c 5 t
    | ⟨6, _⟩ => fun _ => Scalar.ofBits .f32 0#32
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter0 (c : Dev nD) (t : Fin cfg0.N) : (fdats m 0 c).after 0 t = iblk m c 0 t := by dsimp only [fdats]
theorem fafter2 (c : Dev nD) (t : Fin cfg0.N) : (fdats m 0 c).after 2 t = iblk m c 2 t := by dsimp only [fdats]
theorem fafter3 (c : Dev nD) (t : Fin cfg0.N) : (fdats m 0 c).after 3 t = iblk m c 3 t := by dsimp only [fdats]
theorem fafter4 (c : Dev nD) (t : Fin cfg0.N) : (fdats m 0 c).after 4 t = iblk m c 4 t := by dsimp only [fdats]
theorem fafter5 (c : Dev nD) (t : Fin cfg0.N) : (fdats m 0 c).after 5 t = iblk m c 5 t := by dsimp only [fdats]

theorem fbefore0 (c : Dev nD) (t : Fin cfg0.N) (d) : (fdats m 0 c).before 0 t d = iblk m c 0 t :=
  before0_0_of m (fdats m 0 c) (fA_eq m c 0) (fafter0 m c) t d
theorem fbefore2 (c : Dev nD) (t : Fin cfg0.N) (d) : (fdats m 0 c).before 2 t d = iblk m c 2 t :=
  before0_2_of m (fdats m 0 c) (fA_eq m c 2) (fafter2 m c) t d
theorem fbefore3 (c : Dev nD) (t : Fin cfg0.N) (d) : (fdats m 0 c).before 3 t d = iblk m c 3 t :=
  before0_3_of m (fdats m 0 c) (fA_eq m c 3) (fafter3 m c) t d
theorem fbefore4 (c : Dev nD) (t : Fin cfg0.N) (d) : (fdats m 0 c).before 4 t d = iblk m c 4 t :=
  before0_4_of m (fdats m 0 c) (fA_eq m c 4) (fafter4 m c) t d
theorem fbefore5 (c : Dev nD) (t : Fin cfg0.N) (d) : (fdats m 0 c).before 5 t d = iblk m c 5 t :=
  before0_5_of m (fdats m 0 c) (fA_eq m c 5) (fafter5 m c) t d

/-- The class invariant with the two scratch buffers as owned memrefs. -/
theorem PhiA_eq (c : Dev nD) :
    (Pipeline.ΦA spec0 c : sProp 𝕄)
      = iprop(((∃ d, owns (c : Thread nD τ) (Memref.whole cc0_scratch0 : Memref sig .tc .vmem S10000x128 .f32) fullShare d)
          ∗ (∃ d, owns (c : Thread nD τ) (Memref.whole cc0_scratch1 : Memref sig .tc .vmem S10240x128 .f32) fullShare d)) ∗ (∃ r, prngReg c r)) := by
  unfold Pipeline.ΦA; rw [scopedRest0_eq]; simp only [owns_whole]; try rfl

set_option maxHeartbeats 4000000 in
/-- The body obligation: at the first point the first case's run, at the other points of the first pass the
    second's, in the second pass the third's; each hands every buffer back, the five small operands unchanged. -/
theorem fbody (c : Dev nD) : BodyObligationLoose (fdats (F := F) m 0 c) (defs₀ (F := F)) Variants.none () Set.univ fgt := fun t => by
  rw [bigSep_W0, bigSep_W0]
  simp only
  rw [show (fdats m 0 c).Φ t.succ = Pipeline.ΦA spec0 c from rfl, show (fdats m 0 c).Φ t.castSucc = Pipeline.ΦA spec0 c from rfl,
    show (fdats m 0 c).owesAt () t.succ = (fdats m 0 c).owesAt () t.castSucc from rfl, PhiA_eq]
  simp only [fbefore0, fbefore2, fbefore3, fbefore4, fbefore5, fafter0, fafter2, fafter3, fafter4, fafter5]
  iintro ⟨⟨⟨⟨%e9, HS1⟩, ⟨%e10, HS2⟩⟩, Hg⟩, Ho, ⟨%d0, H0⟩, ⟨%x1, H1⟩, ⟨%d2, H2⟩, ⟨%d3, H3⟩, ⟨%d4, H4⟩, ⟨%d5, H5⟩, ⟨%x6, H6⟩⟩
  by_cases h2 : t.val < 20
  · by_cases h1 : t.val = 0
    · iapply (run_first (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) ((hcond1 t).mpr h1) ((hcond2 t).mpr h2)
        (fun h => by have := (hcond3 t).mp h; omega) _ _ _ _ _ _ _ Set.univ _)
      isplitl [H0]; · iexact H0
      isplitl [H2]; · iexact H2
      isplitl [H1]; · iexact H1
      isplitl [HS1]; · iexact HS1
      isplitl [H3]; · iexact H3
      isplitl [H4]; · iexact H4
      isplitl [HS2]; · iexact HS2
      iintro ⟨H0, H2, H1, HS1, H3, H4, HS2⟩
      isplitl [HS1 HS2 Hg]
      · isplitl [HS1 HS2]
        · isplitl [HS1]
          · iexists _; iexact HS1
          · iexists _; iexact HS2
        iexact Hg
      isplitl [Ho]; · iexact Ho
      isplitl [H0]; · iexact H0
      isplitl [H1]; · iexists _; iexact H1
      isplitl [H2]; · iexact H2
      isplitl [H3]; · iexact H3
      isplitl [H4]; · iexact H4
      isplitl [H5]; · iexact H5
      iexists _; iexact H6
    · iapply (run_mid (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (fun h => h1 ((hcond1 t).mp h)) ((hcond2 t).mpr h2)
        (fun h => by have := (hcond3 t).mp h; omega) _ _ _ _ _ Set.univ _)
      isplitl [H1]; · iexact H1
      isplitl [HS1]; · iexact HS1
      isplitl [H3]; · iexact H3
      isplitl [H4]; · iexact H4
      isplitl [HS2]; · iexact HS2
      iintro ⟨H1, HS1, H3, H4, HS2⟩
      isplitl [HS1 HS2 Hg]
      · isplitl [HS1 HS2]
        · isplitl [HS1]
          · iexists _; iexact HS1
          · iexists _; iexact HS2
        iexact Hg
      isplitl [Ho]; · iexact Ho
      isplitl [H0]; · iexact H0
      isplitl [H1]; · iexists _; iexact H1
      isplitl [H2]; · iexact H2
      isplitl [H3]; · iexact H3
      isplitl [H4]; · iexact H4
      isplitl [H5]; · iexact H5
      iexists _; iexact H6
  · iapply (run_late (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (fun h => by have := (hcond1 t).mp h; omega)
      (fun h => h2 ((hcond2 t).mp h)) ((hcond3 t).mpr (by omega)) _ _ _ _ Set.univ _)
    isplitl [H1]; · iexact H1
    isplitl [HS2]; · iexact HS2
    isplitl [H5]; · iexact H5
    isplitl [H6]; · iexact H6
    iintro ⟨H1, HS2, H5, H6⟩
    isplitl [HS1 HS2 Hg]
    · isplitl [HS1 HS2]
      · isplitl [HS1]
        · iexists _; iexact HS1
        · iexists _; iexact HS2
      iexact Hg
    isplitl [Ho]; · iexact Ho
    isplitl [H0]; · iexact H0
    isplitl [H1]; · iexists _; iexact H1
    isplitl [H2]; · iexact H2
    isplitl [H3]; · iexact H3
    isplitl [H4]; · iexact H4
    isplitl [H5]; · iexact H5
    iexists _; iexact H6

set_option backward.isDefEq.respectTransparency.types false in
/-- Every weakly fair execution of the program terminates without a fault; every array a window stages ends at
    contents the proof data allows (an input at what it held), every other unscoped buffer at what it held when
    the region was entered. -/
theorem frun_main : θ_run defs (onTc (τ := τ) (main (F := F))) (s₀ m ρ)
    (Pipeline.RDat.FramePost cfg0 (fun c => (fdats m 0 c).toRForget fgt) (V m)) :=
  Pipeline.RDat.θ_run_frame cfgs (0 : Fin 1) launch0 defs₀ Variants.none (fun c => (fdats m 0 c).toRForget fgt) m ρ main
    (hbody := fun c => (fbody m c).toRForget) (hshare := fun c => (fdats m 0 c).share_full fun _ => rfl)
    (howed := fun _ _ => rfl) (V := V m) (hmain := hmain m Variants.none) (hA := fun c w => fA_eq m c w) (hΦ := fun _ _ => rfl)

/-- The frame claim's post: the six argument arrays end as they began. Four of them are staged inputs, which
    the run leaves at their entry contents; the two bias vectors reach the kernel only through reshaped copies
    and bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    have a0 := (h c).1 0; have a1 := (h c).1 1; have a2 := (h c).1 2; have a4 := (h c).1 4
    rw [Pipeline.RDat.ArrAt_in _ 0 rfl] at a0; rw [Pipeline.RDat.ArrAt_in _ 1 rfl] at a1
    rw [Pipeline.RDat.ArrAt_in _ 2 rfl] at a2; rw [Pipeline.RDat.ArrAt_in _ 4 rfl] at a4
    exact ⟨a0.trans ((fA_eq m c 0).trans (V_main_arg0 m c)), a1.trans ((fA_eq m c 1).trans (V_main_arg1 m c)),
      a2.trans ((fA_eq m c 2).trans (V_main_arg2 m c)),
      ((h c).2 main_arg3 (Pipeline.mem_restRefs_of main_arg3 (by decide) (by decide))).trans (V_main_arg3 m c),
      a4.trans ((fA_eq m c 4).trans (V_main_arg4 m c)),
      ((h c).2 main_arg5 (Pipeline.mem_restRefs_of main_arg5 (by decide) (by decide))).trans (V_main_arg5 m c)⟩) (frun_main m ρ)

end Cert.KernelIdeal.Hand

end
-- ==== Proof.KiGeom.lean ====
/-
  Where each window's block sits in its array, on extended reals.

  The five small operands are staged whole: their block at every grid point is the whole array. The adjacency
  matrix is staged in stripes of 512 rows, stripe j at both points whose second coordinate is j; 10000 is not
  a multiple of 512, so the last stripe holds only 272 rows of the array and the rest of its buffer holds words
  nothing names. The output is written back in the same stripes during the second pass, the last one cut the
  same way; together the twenty stripes cover the array's 10000 rows. The two bias vectors reach the kernel as
  1 × 128 rows, reshaped before the region is entered.
-/
import proofs.«139752_g42614665511374_cont_8to1_b_1813_10_alg».proof.Proof.KiFrame
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)
open Idealize.ShloMosaic.ValueIdx

/-- The small operands' block index is (0, 0) at every point. -/
theorem idx_const : ∀ t : Fin cfg0.N, (∀ a, win0_0.index t a = 0) ∧ (∀ a, win0_2.index t a = 0) ∧ (∀ a, win0_3.index t a = 0) ∧ (∀ a, win0_4.index t a = 0) ∧ (∀ a, win0_5.index t a = 0) :=
  (by decide +kernel : ∀ t : Fin grid0.N, (∀ a, win0_0.index t a = 0) ∧ (∀ a, win0_2.index t a = 0) ∧ (∀ a, win0_3.index t a = 0) ∧ (∀ a, win0_4.index t a = 0) ∧ (∀ a, win0_5.index t a = 0))

/-- The adjacency stripe at point `t` is stripe `t % 20`; it holds 512 rows, or what is left of the 10000. -/
theorem win1_facts : ∀ t : Fin cfg0.N, win0_1.index t 0 = t.val % 20 ∧ win0_1.index t 1 = 0
    ∧ win0_1.xsize (grid0.coords t) 0 = min 512 (10000 - 512 * (t.val % 20)) ∧ win0_1.xsize (grid0.coords t) 1 = 10000 :=
  (by decide +kernel : ∀ t : Fin grid0.N, win0_1.index t 0 = t.val % 20 ∧ win0_1.index t 1 = 0
    ∧ win0_1.xsize (grid0.coords t) 0 = min 512 (10000 - 512 * (t.val % 20)) ∧ win0_1.xsize (grid0.coords t) 1 = 10000)

/-- The output's block in the second pass is stripe `t % 20`, cut the same way, and is written back at every
    point of that pass; in the first pass nothing is stored into its buffer and nothing is written back. -/
theorem win6_late : ∀ t : Fin cfg0.N, 20 ≤ t.val → win0_6.index t 0 = t.val % 20 ∧ win0_6.index t 1 = 0
    ∧ win0_6.xsize (grid0.coords t) 0 = min 512 (10000 - 512 * (t.val % 20)) ∧ win0_6.xsize (grid0.coords t) 1 = 128
    ∧ (cfg0.win 6).flush t = true ∧ cfg0.idle 6 (grid0.coords t) = false :=
  (by decide +kernel : ∀ t : Fin grid0.N, 20 ≤ t.val → win0_6.index t 0 = t.val % 20 ∧ win0_6.index t 1 = 0
    ∧ win0_6.xsize (grid0.coords t) 0 = min 512 (10000 - 512 * (t.val % 20)) ∧ win0_6.xsize (grid0.coords t) 1 = 128
    ∧ (cfg0.win 6).flush t = true ∧ cfg0.idle 6 (grid0.coords t) = false)
theorem win6_early : ∀ t : Fin cfg0.N, t.val < 20 → (cfg0.win 6).flush t = false ∧ cfg0.idle 6 (grid0.coords t) = true :=
  (by decide +kernel : ∀ t : Fin grid0.N, t.val < 20 → (cfg0.win 6).flush t = false ∧ cfg0.idle 6 (grid0.coords t) = true)

/-- Each small operand's block is its whole array, which no host operation before the region writes. -/
theorem iblk0_eq (c : Dev nD) (t : Fin cfg0.N) : iblk m c 0 t = m ((c : Thread nD τ).loc main_arg0) := by
  rw [← V_main_arg0 m c]
  funext y
  show V m c main_arg0 (((cfg0.win 0).blk t).view.emb y) = V m c main_arg0 y
  refine congrArg _ (funext fun a => Fin.ext ?_)
  show win0_0.index t a * S10000x128.size a + 1 * (y a).val = (y a).val
  rw [(idx_const t).1 a]; omega
theorem iblk2_eq (c : Dev nD) (t : Fin cfg0.N) : iblk m c 2 t = m ((c : Thread nD τ).loc main_arg2) := by
  rw [← V_main_arg2 m c]
  funext y
  show V m c main_arg2 (((cfg0.win 2).blk t).view.emb y) = V m c main_arg2 y
  refine congrArg _ (funext fun a => Fin.ext ?_)
  show win0_2.index t a * S128x128.size a + 1 * (y a).val = (y a).val
  rw [(idx_const t).2.1 a]; omega
theorem iblk4_eq (c : Dev nD) (t : Fin cfg0.N) : iblk m c 4 t = m ((c : Thread nD τ).loc main_arg4) := by
  rw [← V_main_arg4 m c]
  funext y
  show V m c main_arg4 (((cfg0.win 4).blk t).view.emb y) = V m c main_arg4 y
  refine congrArg _ (funext fun a => Fin.ext ?_)
  show win0_4.index t a * S128x128.size a + 1 * (y a).val = (y a).val
  rw [(idx_const t).2.2.2.1 a]; omega
theorem iblk3_eq (c : Dev nD) (t : Fin cfg0.N) : iblk m c 3 t = V m c main_call0_v0 := by
  funext y
  show V m c main_call0_v0 (((cfg0.win 3).blk t).view.emb y) = V m c main_call0_v0 y
  refine congrArg _ (funext fun a => Fin.ext ?_)
  show win0_3.index t a * S1x128.size a + 1 * (y a).val = (y a).val
  rw [(idx_const t).2.2.1 a]; omega
theorem iblk5_eq (c : Dev nD) (t : Fin cfg0.N) : iblk m c 5 t = V m c main_call0_v1 := by
  funext y
  show V m c main_call0_v1 (((cfg0.win 5).blk t).view.emb y) = V m c main_call0_v1 y
  refine congrArg _ (funext fun a => Fin.ext ?_)
  show win0_5.index t a * S1x128.size a + 1 * (y a).val = (y a).val
  rw [(idx_const t).2.2.2.2 a]; omega

/-- The bias rows the region finds are the bias vectors reshaped. -/
theorem b1r_eq (c : Dev nD) : (V m c main_call0_v0 : S1x128.Idx → Elt Ideal .f32) = shapeCast S1x128 (m ((c : Thread nD τ).loc main_arg3)) shapeCasts_S128_S1x128 := by
  dsimp only [V, hostOps0]; after_results; rfl
theorem b2r_eq (c : Dev nD) : (V m c main_call0_v1 : S1x128.Idx → Elt Ideal .f32) = shapeCast S1x128 (m ((c : Thread nD τ).loc main_arg5)) shapeCasts_S128_S1x128 := by
  dsimp only [V, hostOps0]; after_results; rfl

/-- Entry j of the staged first bias row is entry j of the first bias vector; the same for the second. -/
theorem bias1_at (c : Dev nD) (t : Fin cfg0.N) (j : Fin 128) : iblk m c 3 t (ix2 0 j) = m ((c : Thread nD τ).loc main_arg3) (ix1 j) := by
  rw [iblk3_eq, b1r_eq]
  exact shapeCast_apply _ shapeCasts_S128_S1x128 (ix2 0 j) (ix1 j) (by rw [Shape.rowMajor_val_one, Shape.rowMajor_val_two]; show j.val = 0 * 128 + j.val; omega)
theorem bias2_at (c : Dev nD) (t : Fin cfg0.N) (j : Fin 128) : iblk m c 5 t (ix2 0 j) = m ((c : Thread nD τ).loc main_arg5) (ix1 j) := by
  rw [iblk5_eq, b2r_eq]
  exact shapeCast_apply _ shapeCasts_S128_S1x128 (ix2 0 j) (ix1 j) (by rw [Shape.rowMajor_val_one, Shape.rowMajor_val_two]; show j.val = 0 * 128 + j.val; omega)

/-- Row p of the adjacency stripe's buffer after its fetch at point `t`, when row 512·(t % 20) + p lies inside
    the array, is that row of the adjacency matrix, whatever the buffer held before. -/
theorem adj_row (c : Dev nD) (t : Fin cfg0.N) (d : S512x10000.Idx → Elt Ideal .f32) (p : Fin 512) (l : Fin 10000) (r : Fin 10000)
    (hr : r.val = 512 * (t.val % 20) + p.val) :
    (cfg0.win 1).fill (grid0.coords t) d (iblk m c 1 t) (ix2 p l) = m ((c : Thread nD τ).loc main_arg1) (ix2 r l) := by
  rw [← V_main_arg1 m c]
  obtain ⟨e0, e1, e2, e3⟩ := win1_facts t
  have hm : (cfg0.win 1).moved (grid0.coords t) (ix2 p l) = true := ((cfg0.win 1).moved_iff _ _).mpr (fun a => by
    match a with
    | ⟨0, _⟩ => show p.val < win0_1.xsize (grid0.coords t) 0; rw [e2]; have := r.isLt; omega
    | ⟨1, _⟩ => show l.val < win0_1.xsize (grid0.coords t) 1; rw [e3]; exact l.isLt)
  unfold Window.fill
  rw [dif_pos hm]
  unfold iblk
  show V m c main_arg1 (((cfg0.win 1).blk t).view.emb _) = V m c main_arg1 (ix2 r l)
  refine congrArg _ (funext fun a => Fin.ext ?_)
  match a with
  | ⟨0, _⟩ => show win0_1.index t 0 * 512 + 1 * p.val = r.val; rw [e0]; omega
  | ⟨1, _⟩ => show win0_1.index t 1 * 10000 + 1 * l.val = l.val; rw [e1]; omega

/-- An index of the output array lies in the block written back at point `t` of the second pass iff its row lies
    among the stripe's rows inside the array. -/
theorem mem_blk6 (t : Fin cfg0.N) (i : S10000x128.Idx) :
    i ∈ ((cfg0.win 6).blk t).view.set ↔ ∀ a : Fin 2, win0_6.index t a * S512x128.size a ≤ (i a).val ∧ (i a).val < win0_6.index t a * S512x128.size a + win0_6.xsize (grid0.coords t) a := by
  show i ∈ ((View.whole main_v0).slice (win0_6.rect t)).set ↔ _
  rw [View.set_slice_whole, Rect.mem_set_unit]
  exact Iff.rfl

/-- Every index of the output array is in the block some point of the second pass writes back. -/
theorem cover6 (i : S10000x128.Idx) : ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 40 := N_0
  let t : Fin cfg0.N := ⟨20 + (i 0).val / 512, by omega⟩
  have ht : 20 ≤ t.val := Nat.le_add_right _ _
  obtain ⟨e0, e1, e2, e3, e4, -⟩ := win6_late t ht
  have htv : t.val % 20 = (i 0).val / 512 := by show (20 + (i 0).val / 512) % 20 = _; omega
  refine ⟨t, e4, ?_⟩
  rw [mem_blk6]
  intro a
  match a with
  | ⟨0, _⟩ => show win0_6.index t 0 * 512 ≤ (i 0).val ∧ (i 0).val < win0_6.index t 0 * 512 + win0_6.xsize (grid0.coords t) 0; rw [e0, e2, htv]; omega
  | ⟨1, _⟩ => show win0_6.index t 1 * 128 ≤ (i 1).val ∧ (i 1).val < win0_6.index t 1 * 128 + win0_6.xsize (grid0.coords t) 1; rw [e1, e3]; omega

end Cert.KernelIdeal.Hand

end
-- ==== Proof.KiMath.lean ====
/-
  The arithmetic of the kernel body and the reference's stages, on extended reals, index by index.

  Write s1 = x·W1 (a 10000 × 128 matrix), h = max(adj·s1 + b1, 0), s2 = h·W2 and out = logistic(adj·s2 + b2),
  where logistic z = 1 / (1 + e^(−z)); the reference computes exactly these whole arrays. The kernel computes s1
  whole, and s2 and out 512 rows at a time from a stripe of adj. A row of a matrix product depends on the same
  row of the left factor only, so each stripe's rows that lie inside the array are the corresponding rows of the
  whole arrays; the stripe's rows past the array's end produce rows nothing reads. The bias row is added to every
  row alike, and a change of float format is the identity on extended reals.
-/
import proofs.«139752_g42614665511374_cont_8to1_b_1813_10_alg».proof.Proof.Gen.KernelIdeal.Skeleton
import proofs.«139752_g42614665511374_cont_8to1_b_1813_10_alg».proof.Proof.Gen.ReferenceIdeal.Read
import Idealize.ShloMosaic.Lib.ValueIdx
import Idealize.ShloMosaic.Lib.Pipeline.Value
import Idealize.ShloMosaic.PureOps.Ideal.Laws
import Idealize.ShloMosaic.Lib.IdealHost

noncomputable section

namespace Cert.KernelIdeal.Math

open Cert.KernelIdeal Cert.KernelIdeal.Gen Cert.ReferenceIdeal.Read
open Idealize.ShloMosaic Idealize.ShloMosaic.ValueIdx

/-- The stripe product: 512 × 10000 by 10000 × 128. -/
abbrev dStripe := dot_S512x10000_S10000x128_S512x128_1_0_0_1_n_n
/-- The product with a weight matrix: 512 × 128 by 128 × 128. -/
abbrev dSmall := dot_S512x128_S128x128_S512x128_1_0_0_1_n_n

theorem stripe_lhs0 (i : S512x128.Idx) (q : dStripe.contr.Idx) : (dStripe.lhsIdx i q 0).val = (i 0).val := by
  unfold DotDims.lhsIdx
  rw [dif_neg (show ¬(0 : Fin S512x10000.rank) ∈ dStripe.lhsBatch by decide), dif_pos (show (0 : Fin S512x10000.rank) ∈ dStripe.lhsNonContracting by decide)]
  rfl
theorem stripe_rhs1 (i : S512x128.Idx) (q : dStripe.contr.Idx) : (dStripe.rhsIdx i q 1).val = (i 1).val := by
  unfold DotDims.rhsIdx
  rw [dif_neg (show ¬(1 : Fin S10000x128.rank) ∈ dStripe.rhsBatch by decide), dif_pos (show (1 : Fin S10000x128.rank) ∈ dStripe.rhsNonContracting by decide)]
  rfl
theorem small_lhs0 (i : S512x128.Idx) (q : dSmall.contr.Idx) : (dSmall.lhsIdx i q 0).val = (i 0).val := by
  unfold DotDims.lhsIdx
  rw [dif_neg (show ¬(0 : Fin S512x128.rank) ∈ dSmall.lhsBatch by decide), dif_pos (show (0 : Fin S512x128.rank) ∈ dSmall.lhsNonContracting by decide)]
  rfl
theorem small_rhs1 (i : S512x128.Idx) (q : dSmall.contr.Idx) : (dSmall.rhsIdx i q 1).val = (i 1).val := by
  unfold DotDims.rhsIdx
  rw [dif_neg (show ¬(1 : Fin S128x128.rank) ∈ dSmall.rhsBatch by decide), dif_pos (show (1 : Fin S128x128.rank) ∈ dSmall.rhsNonContracting by decide)]
  rfl

/-- Entry (p, c) of the stripe product is the sum over k of L(p, k) · R(k, c). -/
theorem stripe_apply {φ₁ φ₂ : FTy} (L : FVec Ideal S512x10000 φ₁) (R : FVec Ideal S10000x128 φ₂) (p : Fin 512) (c : Fin 128) :
    matmul dStripe none L R (constant S512x128 .f32 0x00000000#32) (ix2 p c) = ∑ k : Fin 10000, L (ix2 p k) * R (ix2 k c) := by
  show FloatOps.matmul dStripe none L R (constant S512x128 .f32 0x00000000#32) (ix2 p c) = _
  rw [Ideal.matmul_constant_zero_apply, ← Equiv.sum_comp (contrEquiv1 dStripe 10000 rfl rfl).symm]
  refine Finset.sum_congr rfl fun k _ => ?_
  have hk := contrEquiv1_symm_val dStripe 10000 rfl rfl k
  have el : dStripe.lhsIdx (ix2 p c) ((contrEquiv1 dStripe 10000 rfl rfl).symm k) = ix2 p k := funext fun a => Fin.ext (by
    match a with
    | ⟨0, _⟩ => exact stripe_lhs0 _ _
    | ⟨1, _⟩ => exact (dStripe.lhsIdx_val_of_single rfl _ _).trans hk)
  have er : dStripe.rhsIdx (ix2 p c) ((contrEquiv1 dStripe 10000 rfl rfl).symm k) = ix2 k c := funext fun a => Fin.ext (by
    match a with
    | ⟨0, _⟩ => exact (dStripe.rhsIdx_val_of_single rfl _ _).trans hk
    | ⟨1, _⟩ => exact stripe_rhs1 _ _)
  rw [el, er]

/-- Entry (p, c) of the product with a weight matrix is the sum over j of L(p, j) · R(j, c). -/
theorem small_apply {φ₁ φ₂ : FTy} (L : FVec Ideal S512x128 φ₁) (R : FVec Ideal S128x128 φ₂) (p : Fin 512) (c : Fin 128) :
    matmul dSmall none L R (constant S512x128 .f32 0x00000000#32) (ix2 p c) = ∑ j : Fin 128, L (ix2 p j) * R (ix2 j c) := by
  show FloatOps.matmul dSmall none L R (constant S512x128 .f32 0x00000000#32) (ix2 p c) = _
  rw [Ideal.matmul_constant_zero_apply, ← Equiv.sum_comp (contrEquiv1 dSmall 128 rfl rfl).symm]
  refine Finset.sum_congr rfl fun k _ => ?_
  have hk := contrEquiv1_symm_val dSmall 128 rfl rfl k
  have el : dSmall.lhsIdx (ix2 p c) ((contrEquiv1 dSmall 128 rfl rfl).symm k) = ix2 p k := funext fun a => Fin.ext (by
    match a with
    | ⟨0, _⟩ => exact small_lhs0 _ _
    | ⟨1, _⟩ => exact (dSmall.lhsIdx_val_of_single rfl _ _).trans hk)
  have er : dSmall.rhsIdx (ix2 p c) ((contrEquiv1 dSmall 128 rfl rfl).symm k) = ix2 k c := funext fun a => Fin.ext (by
    match a with
    | ⟨0, _⟩ => exact (dSmall.rhsIdx_val_of_single rfl _ _).trans hk
    | ⟨1, _⟩ => exact small_rhs1 _ _)
  rw [el, er]

/-- The first scratch is the reference's first stage: both are x·W1, the same sum at every index. -/
theorem pay1_eq (X : Vec Ideal S10000x128 .f32) (W1 : Vec Ideal S128x128 .f32) :
    k0_pay1 (F := Ideal) X W1 = val_main_v0 (F := Ideal) X W1 := by
  funext j
  unfold k0_pay1 val_main_v0
  try dsimp only
  rw [shapeCast_self]
  simp only [Host.dotGeneral]
  exact (Ideal.matmul_constant_zero_apply _ none _ _ j).trans (Ideal.dotGeneral_apply _ none _ _ _ j).symm

/-- The bias row, broadcast over the 512 rows, read at (p, j): the row's entry j. -/
theorem bias_apply (b : Vec Ideal S1x128 .f32) (p : Fin 512) (j : Fin 128) :
    broadcastTo S512x128 (shapeCast S1x128 b shapeCasts_S1x128_S1x128) broadcasts_S1x128_S512x128 (ix2 p j) = b (ix2 0 j) := by
  rw [shapeCast_self]
  exact broadcastTo_apply b broadcasts_S1x128_S512x128 (ix2 p j) (ix2 0 j) (fun a => match a with
    | ⟨0, _⟩ => by show 0 = if (1 : Nat) = 1 then 0 else _; rw [if_pos rfl]
    | ⟨1, _⟩ => by show j.val = if (128 : Nat) = 1 then 0 else j.val; rw [if_neg (by decide)])

/-- Row p of the first-pass payload is row r of the reference's s2, when row p of the stripe is row r of adj,
    the first scratch is s1 and the bias row is b1. -/
theorem pay2_row (xadj : Vec Ideal S512x10000 .f32) (S1k : Vec Ideal S10000x128 .f32) (b1r : Vec Ideal S1x128 .f32) (W2 : Vec Ideal S128x128 .f32)
    (X : Vec Ideal S10000x128 .f32) (A : Vec Ideal S10000x10000 .f32) (W1 : Vec Ideal S128x128 .f32) (B1 : Vec Ideal S128 .f32)
    (p : Fin 512) (r : Fin 10000) (c : Fin 128)
    (hrow : ∀ l : Fin 10000, xadj (ix2 p l) = A (ix2 r l)) (hs1 : S1k = val_main_v0 (F := Ideal) X W1)
    (hb : ∀ j : Fin 128, b1r (ix2 0 j) = B1 (ix1 j)) :
    k0_pay2 (F := Ideal) xadj S1k b1r W2 (ix2 p c) = val_main_v6 (F := Ideal) X A W1 B1 W2 (ix2 r c) := by
  unfold k0_pay2
  try dsimp only
  rw [shapeCast_self, small_apply, val_main_v6_apply]
  refine Finset.sum_congr rfl fun j _ => ?_
  have e1 : lidx_main_v6 (ix2 r c) j = ix2 r j := funext fun a => Fin.ext (by match a with | ⟨0, _⟩ => rfl | ⟨1, _⟩ => rfl)
  have e2 : ridx_main_v6 (ix2 r c) j = ix2 j c := funext fun a => Fin.ext (by match a with | ⟨0, _⟩ => rfl | ⟨1, _⟩ => rfl)
  rw [e1, e2]
  congr 1
  rw [maximumf_apply, addf_apply, stripe_apply, bias_apply, val_main_v5_apply, val_main_v4_apply, val_main_v1_apply,
    val_main_v3_apply, val_main_v2_apply, val_main_call0_v0_apply, val_main_call0_cst_apply, hb j, hs1]
  have e3 : idx_main_v2 (idx_main_v3 (ix2 r j)) = ix1 j := funext fun a => Fin.ext (by match a with | ⟨0, _⟩ => rfl)
  rw [e3]
  show max ((∑ k : Fin 10000, xadj (ix2 p k) * val_main_v0 (F := Ideal) X W1 (ix2 k j)) + B1 (ix1 j)) (Ideal.ofBits .f32 0x00000000#32) = max ((∑ k : Fin 10000, A (lidx_main_v1 (ix2 r j) k) * val_main_v0 (F := Ideal) X W1 (ridx_main_v1 (ix2 r j) k)) + B1 (ix1 j)) (Ideal.ofBits .f32 0x00000000#32)
  congr 2
  refine Finset.sum_congr rfl fun k _ => ?_
  have e4 : lidx_main_v1 (ix2 r j) k = ix2 r k := funext fun a => Fin.ext (by match a with | ⟨0, _⟩ => rfl | ⟨1, _⟩ => rfl)
  have e5 : ridx_main_v1 (ix2 r j) k = ix2 k j := funext fun a => Fin.ext (by match a with | ⟨0, _⟩ => rfl | ⟨1, _⟩ => rfl)
  rw [e4, e5, hrow k]

/-- Row p of the second-pass payload is row r of the reference's result, when row p of the stripe is row r of
    adj, the loaded rows of the second scratch are s2 and the bias row is b2. -/
theorem pay3_row (xadj : Vec Ideal S512x10000 .f32) (S2k : Vec Ideal S10000x128 .f32) (b2r : Vec Ideal S1x128 .f32)
    (X : Vec Ideal S10000x128 .f32) (A : Vec Ideal S10000x10000 .f32) (W1 : Vec Ideal S128x128 .f32) (B1 : Vec Ideal S128 .f32)
    (W2 : Vec Ideal S128x128 .f32) (B2 : Vec Ideal S128 .f32)
    (p : Fin 512) (r : Fin 10000) (c : Fin 128)
    (hrow : ∀ l : Fin 10000, xadj (ix2 p l) = A (ix2 r l)) (hs2 : S2k = val_main_v6 (F := Ideal) X A W1 B1 W2)
    (hb : ∀ j : Fin 128, b2r (ix2 0 j) = B2 (ix1 j)) :
    k0_pay3 (F := Ideal) xadj S2k b2r (ix2 p c) = val_main_v16 (F := Ideal) X A W1 B1 W2 B2 (ix2 r c) := by
  unfold k0_pay3
  try dsimp only
  rw [val_main_v16_apply, val_main_v15_apply, val_main_cst_0_apply, val_main_v14_apply, val_main_v13_apply, val_main_cst_apply,
    val_main_v12_apply, val_main_v11_apply, val_main_v10_apply, val_main_v7_apply, val_main_v9_apply, val_main_v8_apply]
  have e3 : idx_main_v8 (idx_main_v9 (ix2 r c)) = ix1 c := funext fun a => Fin.ext (by match a with | ⟨0, _⟩ => rfl)
  rw [e3]
  have e4 : ∀ k : Fin 10000, lidx_main_v7 (ix2 r c) k = ix2 r k := fun k => funext fun a => Fin.ext (by match a with | ⟨0, _⟩ => rfl | ⟨1, _⟩ => rfl)
  have e5 : ∀ k : Fin 10000, ridx_main_v7 (ix2 r c) k = ix2 k c := fun k => funext fun a => Fin.ext (by match a with | ⟨0, _⟩ => rfl | ⟨1, _⟩ => rfl)
  have hz : (addf (matmul dStripe none (truncf .bf16 xadj bitsLt_bf16_f32) (truncf .bf16 S2k bitsLt_bf16_f32) (constant S512x128 .f32 0x00000000#32))
        (broadcastTo S512x128 (shapeCast S1x128 b2r shapeCasts_S1x128_S1x128) broadcasts_S1x128_S512x128) : FVec Ideal S512x128 .f32) (ix2 p c)
      = FloatOps.addf (∑ k : Fin 10000, A (lidx_main_v7 (ix2 r c) k) * val_main_v6 (F := Ideal) X A W1 B1 W2 (ridx_main_v7 (ix2 r c) k)) (B2 (ix1 c)) := by
    rw [addf_apply, stripe_apply, bias_apply, hb c, hs2]
    show _ + _ = _ + _
    congr 1
    refine Finset.sum_congr rfl fun k _ => ?_
    rw [e4, e5, ← hrow k]; rfl
  have h1 : (FloatOps.ofBits (F := Ideal) .f32 0x3F800000#32) = (1 : Ideal .f32) := Ideal.ofBits_one_f32
  show FloatOps.logistic ((addf (matmul dStripe none (truncf .bf16 xadj bitsLt_bf16_f32) (truncf .bf16 S2k bitsLt_bf16_f32) (constant S512x128 .f32 0x00000000#32))
        (broadcastTo S512x128 (shapeCast S1x128 b2r shapeCasts_S1x128_S1x128) broadcasts_S1x128_S512x128) : FVec Ideal S512x128 .f32) (ix2 p c)) = _
  rw [hz, h1]
  rfl

end Cert.KernelIdeal.Math

end
-- ==== Proof.KiValue.lean ====
/-
  The value of the idealized kernel: on extended reals the output array ends holding the reference's result.

  The specification is the reference's own stages read as whole-array functions of the six argument arrays:
  s1 = x·W1, s2 = max(adj·s1 + b1, 0)·W2, and the result logistic(adj·s2 + b2). The invariant carried from grid
  point to grid point says: after the first point the first scratch holds s1; before point n the rows of the
  second scratch below 512·n that lie inside the array hold the same rows of s2. A first-pass point extends the
  rows by its stripe (a row of a product depends on that row of the left factor only, so the stripe's rows past
  the array's end, which nothing names, do no harm); from point 20 on every row of s2 is there, and a second-pass
  point leaves in the output's buffer, on the rows inside the array, the same rows of the result. The twenty
  stripes written back in the second pass cover the array.
-/
import proofs.«139752_g42614665511374_cont_8to1_b_1813_10_alg».proof.Proof.KiGeom
import proofs.«139752_g42614665511374_cont_8to1_b_1813_10_alg».proof.Proof.KiMath
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)
open Idealize.ShloMosaic.ValueIdx Cert.ReferenceIdeal.Read Cert.KernelIdeal.Math

local notation "𝕀" => MT nD τ sig Unit (Elt Ideal) ℕ (UR sig nD τ) ℕ

/-! ## The specification -/

abbrev aX (c : Dev nD) : S10000x128.Idx → Elt Ideal .f32 := m ((c : Thread nD τ).loc main_arg0)
abbrev aA (c : Dev nD) : S10000x10000.Idx → Elt Ideal .f32 := m ((c : Thread nD τ).loc main_arg1)
abbrev aW1 (c : Dev nD) : S128x128.Idx → Elt Ideal .f32 := m ((c : Thread nD τ).loc main_arg2)
abbrev aB1 (c : Dev nD) : S128.Idx → Elt Ideal .f32 := m ((c : Thread nD τ).loc main_arg3)
abbrev aW2 (c : Dev nD) : S128x128.Idx → Elt Ideal .f32 := m ((c : Thread nD τ).loc main_arg4)
abbrev aB2 (c : Dev nD) : S128.Idx → Elt Ideal .f32 := m ((c : Thread nD τ).loc main_arg5)

/-- s1 = x·W1. -/
def s1 (c : Dev nD) : S10000x128.Idx → Elt Ideal .f32 := val_main_v0 (F := Ideal) (aX m c) (aW1 m c)
/-- s2 = max(adj·s1 + b1, 0)·W2. -/
def s2 (c : Dev nD) : S10000x128.Idx → Elt Ideal .f32 := val_main_v6 (F := Ideal) (aX m c) (aA m c) (aW1 m c) (aB1 m c) (aW2 m c)
/-- The result: logistic(adj·s2 + b2). -/
def outG (c : Dev nD) : S10000x128.Idx → Elt Ideal .f32 := val_main_v16 (F := Ideal) (aX m c) (aA m c) (aW1 m c) (aB1 m c) (aW2 m c) (aB2 m c)

/-- What the two scratch buffers hold before point `n`. -/
def InvS (c : Dev nD) (n : ℕ) (Y1 : S10000x128.Idx → Elt Ideal .f32) (Y2 : S10240x128.Idx → Elt Ideal .f32) : Prop :=
  (0 < n → Y1 = s1 m c) ∧ ∀ (y : S10240x128.Idx) (r : Fin 10000), (y 0).val = r.val → r.val < 512 * n → Y2 y = s2 m c (ix2 r ⟨(y 1).val, idx2_lt1 y⟩)

/-- The region invariant before point `n`: the scratch buffers at contents of which `InvS` holds, and the
    generator register at some state. -/
def PhiV (c : Dev nD) (n : ℕ) : sProp 𝕀 :=
  iprop(∃ Y1 : S10000x128.Idx → Elt Ideal .f32, ∃ Y2 : S10240x128.Idx → Elt Ideal .f32, ⌜InvS m c n Y1 Y2⌝
      ∗ owns (c : Thread nD τ) (Memref.whole cc0_scratch0 : Memref sig .tc .vmem S10000x128 .f32) fullShare Y1
      ∗ owns (c : Thread nD τ) (Memref.whole cc0_scratch1 : Memref sig .tc .vmem S10240x128 .f32) fullShare Y2 ∗ (∃ r, prngReg c r))

/-! ## The proof data -/

/-- After the body at point `t`: each small operand's buffer at its block; the stripe's buffer at its block on
    the rows inside the array; the output's at the result's block on the rows inside the array. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => (cfg0.win 1).fill (grid0.coords t) (fun _ => (Scalar.ofBits .f32 0#32 : Ideal .f32)) (iblk m c 1 t)
    | ⟨2, _⟩ => iblk m c 2 t
    | ⟨3, _⟩ => iblk m c 3 t
    | ⟨4, _⟩ => iblk m c 4 t
    | ⟨5, _⟩ => iblk m c 5 t
    | ⟨6, _⟩ => (cfg0.win 6).fill (grid0.coords t) (fun _ => (Scalar.ofBits .f32 0#32 : Ideal .f32)) (((cfg0.win 6).blk t).view.read (Elt Ideal) (outG m c))
  Φ t := PhiV m c t.val
  q _ := fullShare
  owed _ := 0

theorem vA_eq (c : Dev nD) (w : Fin cfg0.W) : (vdats m 0 c).A w = V m c (Pipeline.arrRef spec0 w) := by dsimp only [vdats]
theorem vafter0 (c : Dev nD) (t : Fin cfg0.N) : (vdats m 0 c).after 0 t = iblk m c 0 t := by dsimp only [vdats]
theorem vafter1 (c : Dev nD) (t : Fin cfg0.N) : (vdats m 0 c).after 1 t = (cfg0.win 1).fill (grid0.coords t) (fun _ => (Scalar.ofBits .f32 0#32 : Ideal .f32)) (iblk m c 1 t) := by dsimp only [vdats]
theorem vafter2 (c : Dev nD) (t : Fin cfg0.N) : (vdats m 0 c).after 2 t = iblk m c 2 t := by dsimp only [vdats]
theorem vafter3 (c : Dev nD) (t : Fin cfg0.N) : (vdats m 0 c).after 3 t = iblk m c 3 t := by dsimp only [vdats]
theorem vafter4 (c : Dev nD) (t : Fin cfg0.N) : (vdats m 0 c).after 4 t = iblk m c 4 t := by dsimp only [vdats]
theorem vafter5 (c : Dev nD) (t : Fin cfg0.N) : (vdats m 0 c).after 5 t = iblk m c 5 t := by dsimp only [vdats]
theorem vafter6 (c : Dev nD) (t : Fin cfg0.N) : (vdats m 0 c).after 6 t = (cfg0.win 6).fill (grid0.coords t) (fun _ => (Scalar.ofBits .f32 0#32 : Ideal .f32)) (((cfg0.win 6).blk t).view.read (Elt Ideal) (outG m c)) := by dsimp only [vdats]

theorem vbefore0 (c : Dev nD) (t : Fin cfg0.N) (d) : (vdats m 0 c).before 0 t d = iblk m c 0 t :=
  before0_0_of m (vdats m 0 c) (vA_eq m c 0) (vafter0 m c) t d
theorem vbefore2 (c : Dev nD) (t : Fin cfg0.N) (d) : (vdats m 0 c).before 2 t d = iblk m c 2 t :=
  before0_2_of m (vdats m 0 c) (vA_eq m c 2) (vafter2 m c) t d
theorem vbefore3 (c : Dev nD) (t : Fin cfg0.N) (d) : (vdats m 0 c).before 3 t d = iblk m c 3 t :=
  before0_3_of m (vdats m 0 c) (vA_eq m c 3) (vafter3 m c) t d
theorem vbefore4 (c : Dev nD) (t : Fin cfg0.N) (d) : (vdats m 0 c).before 4 t d = iblk m c 4 t :=
  before0_4_of m (vdats m 0 c) (vA_eq m c 4) (vafter4 m c) t d
theorem vbefore5 (c : Dev nD) (t : Fin cfg0.N) (d) : (vdats m 0 c).before 5 t d = iblk m c 5 t :=
  before0_5_of m (vdats m 0 c) (vA_eq m c 5) (vafter5 m c) t d
/-- The stripe is fetched at every point: its buffer holds the block on the rows inside the array. -/
theorem vbefore1 (c : Dev nD) (t : Fin cfg0.N) (d) : (vdats m 0 c).before 1 t d = (cfg0.win 1).fill (grid0.coords t) d (iblk m c 1 t) := by
  unfold Dat.before; rw [if_pos (fetch0_1 t)]; unfold Dat.fetched Dat.blockOf iblk; rw [vA_eq]

/-! ## One step of the invariant -/

/-- Loading the first 10000 rows of the second scratch reads those rows. -/
theorem ld_rows {off : Fin 2 → ℕ} (hz : off = fun _ => 0) (inb : ∀ a, off a + S10000x128.size a ≤ S10240x128.size a)
    (Y2 : S10240x128.Idx → Elt Ideal .f32) (k : S10000x128.Idx) (y : S10240x128.Idx) (hy : ∀ a, (y a).val = (k a).val) :
    View.ld Y2 (Rect.unit (s := S10240x128) off S10000x128.size inb) k = Y2 y := by
  subst hz
  show Y2 ((Rect.unit (s := S10240x128) (fun _ => 0) S10000x128.size inb).emb k) = Y2 y
  refine congrArg Y2 (funext fun a => Fin.ext ?_)
  show 0 + 1 * (k a).val = (y a).val
  rw [hy a]; omega

/-- A point of the first pass extends the rows of s2 the second scratch holds by its stripe. -/
theorem inv_step (c : Dev nD) (t : Fin cfg0.N) (ht : t.val < 20) (hc2 : cond2 (grid0.coords t)) (d1 : S512x10000.Idx → Elt Ideal .f32)
    (Y1 : S10000x128.Idx → Elt Ideal .f32) (Y2 : S10240x128.Idx → Elt Ideal .f32)
    (arg10 : Memref sig .tc .vmem S10240x128 .f32) (harg10 : arg10.IsWhole) (hY1 : Y1 = s1 m c)
    (hY2 : ∀ (y : S10240x128.Idx) (r : Fin 10000), (y 0).val = r.val → r.val < 512 * t.val → Y2 y = s2 m c (ix2 r ⟨(y 1).val, idx2_lt1 y⟩)) :
    ∀ (y : S10240x128.Idx) (r : Fin 10000), (y 0).val = r.val → r.val < 512 * (t.val + 1) →
      s2Upd (grid0.coords t) hc2 arg10 harg10 Y2 (k0_pay2 ((cfg0.win 1).fill (grid0.coords t) d1 (iblk m c 1 t)) Y1 (iblk m c 3 t) (iblk m c 4 t)) y
        = s2 m c (ix2 r ⟨(y 1).val, idx2_lt1 y⟩) := by
  intro y r hy hr
  have hmod : t.val % 20 = t.val := Nat.mod_eq_of_lt ht
  by_cases hlt : r.val < 512 * t.val
  · rw [s2Upd_out (grid0.coords t) hc2 arg10 harg10 Y2 _ (512 * (t.val % 20)) (off1_eq t) y (Or.inl (by rw [hy, hmod]; exact hlt))]
    exact hY2 y r hy hlt
  · obtain ⟨p, hp⟩ : ∃ p : Fin 512, p.val = r.val - 512 * t.val := ⟨⟨r.val - 512 * t.val, by omega⟩, rfl⟩
    rw [s2Upd_in (grid0.coords t) hc2 arg10 harg10 Y2 _ (512 * (t.val % 20)) (off1_eq t) y (ix2 p ⟨(y 1).val, idx2_lt1 y⟩)
      (by show (y 0).val = 512 * (t.val % 20) + p.val; rw [hy, hmod, hp]; omega) rfl]
    rw [iblk4_eq m c t]
    exact pay2_row _ Y1 _ _ (aX m c) (aA m c) (aW1 m c) (aB1 m c) p r ⟨(y 1).val, idx2_lt1 y⟩
      (fun l => adj_row m c t d1 p l r (by rw [hmod, hp]; omega)) hY1 (fun j => bias1_at m c t j)

/-- A point of the second pass leaves, on the rows inside the array, the result's block. -/
theorem out_step (c : Dev nD) (t : Fin cfg0.N) (ht : 20 ≤ t.val) (d1 : S512x10000.Idx → Elt Ideal .f32) (Y2 : S10240x128.Idx → Elt Ideal .f32)
    (hY2 : ∀ (y : S10240x128.Idx) (r : Fin 10000), (y 0).val = r.val → Y2 y = s2 m c (ix2 r ⟨(y 1).val, idx2_lt1 y⟩)) :
    (cfg0.win 6).cut (grid0.coords t) (k0_pay3 ((cfg0.win 1).fill (grid0.coords t) d1 (iblk m c 1 t)) (s2Head Y2) (iblk m c 5 t))
      = ((cfg0.win 6).blk t).view.read (Elt Ideal) (outG m c) := by
  obtain ⟨e0, e1, e2, e3, -, -⟩ := win6_late t ht
  have hs2 : s2Head Y2 = s2 m c := funext fun k => by
    have hk0 := idx2_lt0 k
    unfold s2Head
    rw [ld_rows zero2 _ Y2 k (ix2 ⟨(k 0).val, by omega⟩ ⟨(k 1).val, idx2_lt1 k⟩) (fun a => by match a with | ⟨0, _⟩ => rfl | ⟨1, _⟩ => rfl),
      hY2 _ ⟨(k 0).val, hk0⟩ rfl]
    exact congrArg (s2 m c) (funext fun a => Fin.ext (by match a with | ⟨0, _⟩ => rfl | ⟨1, _⟩ => rfl))
  funext j
  have hj0 : (j 0).val < win0_6.xsize (grid0.coords t) 0 := (j 0).isLt
  have hj1 : (j 1).val < win0_6.xsize (grid0.coords t) 1 := (j 1).isLt
  rw [e2] at hj0; rw [e3] at hj1
  obtain ⟨p, hp⟩ : ∃ p : Fin 512, p.val = (j 0).val := ⟨⟨(j 0).val, by omega⟩, rfl⟩
  obtain ⟨q, hq⟩ : ∃ q : Fin 128, q.val = (j 1).val := ⟨⟨(j 1).val, hj1⟩, rfl⟩
  obtain ⟨r, hr⟩ : ∃ r : Fin 10000, r.val = 512 * (t.val % 20) + (j 0).val := ⟨⟨512 * (t.val % 20) + (j 0).val, by omega⟩, rfl⟩
  show k0_pay3 ((cfg0.win 1).fill (grid0.coords t) d1 (iblk m c 1 t)) (s2Head Y2) (iblk m c 5 t) ((cfg0.win 6).xinj (grid0.coords t) j)
    = outG m c (((cfg0.win 6).blk t).view.emb j)
  have ex : (cfg0.win 6).xinj (grid0.coords t) j = ix2 p q := funext fun a => Fin.ext (by match a with | ⟨0, _⟩ => exact hp.symm | ⟨1, _⟩ => exact hq.symm)
  have ee : ((cfg0.win 6).blk t).view.emb j = ix2 r q := funext fun a => Fin.ext (by
    match a with
    | ⟨0, _⟩ => show win0_6.index t 0 * 512 + 1 * (j 0).val = r.val; rw [e0, hr]; omega
    | ⟨1, _⟩ => show win0_6.index t 1 * 128 + 1 * (j 1).val = q.val; rw [e1, hq]; omega)
  rw [ex, ee]
  exact pay3_row _ _ _ (aX m c) (aA m c) (aW1 m c) (aB1 m c) (aW2 m c) (aB2 m c) p r q
    (fun l => adj_row m c t d1 p l r (by rw [hr, hp])) hs2 (fun j => bias2_at m c t j)

end Cert.KernelIdeal.Hand

end
-- ==== Proof.KiRun.lean ====
/-
  The run of the idealized kernel on extended reals: every weakly fair execution terminates without a fault, the
  output array ends holding the reference's result as a function of the argument arrays, and the arguments end
  unchanged.
-/
import proofs.«139752_g42614665511374_cont_8to1_b_1813_10_alg».proof.Proof.KiValue
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)
open Idealize.ShloMosaic.ValueIdx Cert.ReferenceIdeal.Read Cert.KernelIdeal.Math

local notation "𝕀" => MT nD τ sig Unit (Elt Ideal) ℕ (UR sig nD τ) ℕ

/-! ## What each window's buffer is left at -/

theorem vleaves0 (c : Dev nD) (t : Fin cfg0.N) : ((vdats m 0 c).leaves 0 t : sProp 𝕀) = owns (c : Thread nD τ) (st0_0 t) fullShare (iblk m c 0 t) := by
  show owns (c : Thread nD τ) (st0_0 t) fullShare ((vdats m 0 c).after 0 t) = _; rw [vafter0]
theorem vleaves2 (c : Dev nD) (t : Fin cfg0.N) : ((vdats m 0 c).leaves 2 t : sProp 𝕀) = owns (c : Thread nD τ) (st0_2 t) fullShare (iblk m c 2 t) := by
  show owns (c : Thread nD τ) (st0_2 t) fullShare ((vdats m 0 c).after 2 t) = _; rw [vafter2]
theorem vleaves3 (c : Dev nD) (t : Fin cfg0.N) : ((vdats m 0 c).leaves 3 t : sProp 𝕀) = owns (c : Thread nD τ) (st0_3 t) fullShare (iblk m c 3 t) := by
  show owns (c : Thread nD τ) (st0_3 t) fullShare ((vdats m 0 c).after 3 t) = _; rw [vafter3]
theorem vleaves4 (c : Dev nD) (t : Fin cfg0.N) : ((vdats m 0 c).leaves 4 t : sProp 𝕀) = owns (c : Thread nD τ) (st0_4 t) fullShare (iblk m c 4 t) := by
  show owns (c : Thread nD τ) (st0_4 t) fullShare ((vdats m 0 c).after 4 t) = _; rw [vafter4]
theorem vleaves5 (c : Dev nD) (t : Fin cfg0.N) : ((vdats m 0 c).leaves 5 t : sProp 𝕀) = owns (c : Thread nD τ) (st0_5 t) fullShare (iblk m c 5 t) := by
  show owns (c : Thread nD τ) (st0_5 t) fullShare ((vdats m 0 c).after 5 t) = _; rw [vafter5]
/-- The stripe's buffer is described on the rows inside the array only. -/
theorem vleaves1 (c : Dev nD) (t : Fin cfg0.N) : ((vdats m 0 c).leaves 1 t : sProp 𝕀)
    = iprop(∃ d, owns (c : Thread nD τ) (st0_1 t) fullShare ((cfg0.win 1).fill (grid0.coords t) d (iblk m c 1 t))) := by
  show iprop(∃ d, owns (c : Thread nD τ) (st0_1 t) fullShare ((cfg0.win 1).fill (grid0.coords t) d ((cfg0.win 1).cut (grid0.coords t) ((vdats m 0 c).after 1 t)))) = _
  rw [vafter1, Window.cut_fill]
/-- So is the output's, at a point of the second pass. -/
theorem vleaves6 (c : Dev nD) (t : Fin cfg0.N) (ht : 20 ≤ t.val) : ((vdats m 0 c).leaves 6 t : sProp 𝕀)
    = iprop(∃ d, owns (c : Thread nD τ) (st0_6 t) fullShare ((cfg0.win 6).fill (grid0.coords t) d (((cfg0.win 6).blk t).view.read (Elt Ideal) (outG m c)))) := by
  have hi := (win6_late t ht).2.2.2.2.2
  unfold Dat.leaves
  rw [hi]
  show iprop(∃ d, owns (c : Thread nD τ) (st0_6 t) fullShare ((cfg0.win 6).fill (grid0.coords t) d ((cfg0.win 6).cut (grid0.coords t) ((vdats m 0 c).after 6 t)))) = _
  rw [vafter6, Window.cut_fill]

/-! ## The body obligation -/

def vPre (c : Dev nD) (t : Fin cfg0.N) : sProp 𝕀 :=
  iprop(PhiV m c t.val ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d))
    ∗ (∃ d, owns (c : Thread nD τ) (st0_6 t) fullShare ((vdats m 0 c).before 6 t d)))

def vPost (c : Dev nD) (t : Fin cfg0.N) : sProp 𝕀 :=
  iprop(PhiV m c (t.val + 1) ∗ (vdats m 0 c).owesAt () t.succ
    ∗ (vdats m 0 c).leaves 0 t ∗ (vdats m 0 c).leaves 1 t ∗ (vdats m 0 c).leaves 2 t ∗ (vdats m 0 c).leaves 3 t
    ∗ (vdats m 0 c).leaves 4 t ∗ (vdats m 0 c).leaves 5 t ∗ (vdats m 0 c).leaves 6 t)

set_option maxHeartbeats 4000000 in
/-- The body at any point: the first pass extends the invariant by the point's stripe (at the first point after
    storing s1), the second pass keeps it and leaves the result's rows in the output's buffer. -/
theorem vsound (c : Dev nD) (t : Fin cfg0.N) :
    vPre m c t ⊢ wp Idealize.ShloMosaic.frame (wpE (defs₀ (F := Ideal)) Variants.none c none) Set.univ (bodyAt0 t) (fun _ => vPost m c t) := by
  unfold vPre vPost bodyAt0
  simp only [vbefore0, vbefore1, vbefore2, vbefore3, vbefore4, vbefore5]
  rw [show (vdats m 0 c).owesAt () t.succ = (vdats m 0 c).owesAt () t.castSucc from rfl,
    vleaves0, vleaves1, vleaves2, vleaves3, vleaves4, vleaves5]
  unfold PhiV
  by_cases h2 : t.val < 20
  · obtain ⟨hfl, hid⟩ := win6_early t h2
    rw [Dat.leaves_idle (vdats m 0 c) 6 t hid hfl]
    iintro ⟨⟨%Y1, %Y2, %hinv, HS1, HS2, Hg⟩, Ho, ⟨%d0, H0⟩, ⟨%d1, H1⟩, ⟨%d2, H2⟩, ⟨%d3, H3⟩, ⟨%d4, H4⟩, ⟨%d5, H5⟩, ⟨%d6, H6⟩⟩
    by_cases h1 : t.val = 0
    · have hp1 : k0_pay1 (F := Ideal) (iblk m c 0 t) (iblk m c 2 t) = s1 m c := by rw [iblk0_eq, iblk2_eq]; exact pay1_eq _ _
      iapply (run_first (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) ((hcond1 t).mpr h1) ((hcond2 t).mpr h2)
        (fun h => by have := (hcond3 t).mp h; omega) _ _ _ _ _ _ _ Set.univ _)
      isplitl [H0]; · iexact H0
      isplitl [H2]; · iexact H2
      isplitl [H1]; · iexact H1
      isplitl [HS1]; · iexact HS1
      isplitl [H3]; · iexact H3
      isplitl [H4]; · iexact H4
      isplitl [HS2]; · iexact HS2
      iintro ⟨H0, H2, H1, HS1, H3, H4, HS2⟩
      isplitl [HS1 HS2 Hg]
      · iexists (k0_pay1 (F := Ideal) (iblk m c 0 t) (iblk m c 2 t))
        iexists (s2Upd (grid0.coords t) ((hcond2 t).mpr h2) (Memref.whole cc0_scratch1 : Memref sig .tc .vmem S10240x128 .f32) (Memref.isWhole_whole _) Y2 (k0_pay2 (F := Ideal) ((cfg0.win 1).fill (grid0.coords t) d1 (iblk m c 1 t)) (k0_pay1 (F := Ideal) (iblk m c 0 t) (iblk m c 2 t)) (iblk m c 3 t) (iblk m c 4 t)))
        isplitr
        · ipureintro
          exact ⟨fun _ => hp1, inv_step m c t h2 ((hcond2 t).mpr h2) d1 (k0_pay1 (F := Ideal) (iblk m c 0 t) (iblk m c 2 t)) Y2 (Memref.whole cc0_scratch1 : Memref sig .tc .vmem S10240x128 .f32) (Memref.isWhole_whole _) hp1 (fun y r _ hr => absurd hr (by omega))⟩
        isplitl [HS1]; · iexact HS1
        isplitl [HS2]; · iexact HS2
        iexact Hg
      isplitl [Ho]; · iexact Ho
      isplitl [H0]; · iexact H0
      isplitl [H1]; · iexists d1; iexact H1
      isplitl [H2]; · iexact H2
      isplitl [H3]; · iexact H3
      isplitl [H4]; · iexact H4
      isplitl [H5]; · iexact H5
      iexists d6; iexact H6
    · have hY1 : Y1 = s1 m c := hinv.1 (Nat.pos_of_ne_zero h1)
      iapply (run_mid (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (fun h => h1 ((hcond1 t).mp h)) ((hcond2 t).mpr h2)
        (fun h => by have := (hcond3 t).mp h; omega) _ _ _ _ _ Set.univ _)
      isplitl [H1]; · iexact H1
      isplitl [HS1]; · iexact HS1
      isplitl [H3]; · iexact H3
      isplitl [H4]; · iexact H4
      isplitl [HS2]; · iexact HS2
      iintro ⟨H1, HS1, H3, H4, HS2⟩
      isplitl [HS1 HS2 Hg]
      · iexists Y1
        iexists (s2Upd (grid0.coords t) ((hcond2 t).mpr h2) (Memref.whole cc0_scratch1 : Memref sig .tc .vmem S10240x128 .f32) (Memref.isWhole_whole _) Y2 (k0_pay2 (F := Ideal) ((cfg0.win 1).fill (grid0.coords t) d1 (iblk m c 1 t)) Y1 (iblk m c 3 t) (iblk m c 4 t)))
        isplitr
        · ipureintro
          exact ⟨fun _ => hY1, inv_step m c t h2 ((hcond2 t).mpr h2) d1 Y1 Y2 (Memref.whole cc0_scratch1 : Memref sig .tc .vmem S10240x128 .f32) (Memref.isWhole_whole _) hY1 hinv.2⟩
        isplitl [HS1]; · iexact HS1
        isplitl [HS2]; · iexact HS2
        iexact Hg
      isplitl [Ho]; · iexact Ho
      isplitl [H0]; · iexact H0
      isplitl [H1]; · iexists d1; iexact H1
      isplitl [H2]; · iexact H2
      isplitl [H3]; · iexact H3
      isplitl [H4]; · iexact H4
      isplitl [H5]; · iexact H5
      iexists d6; iexact H6
  · have ht : 20 ≤ t.val := Nat.le_of_not_lt h2
    rw [vleaves6 m c t ht]
    iintro ⟨⟨%Y1, %Y2, %hinv, HS1, HS2, Hg⟩, Ho, ⟨%d0, H0⟩, ⟨%d1, H1⟩, ⟨%d2, H2⟩, ⟨%d3, H3⟩, ⟨%d4, H4⟩, ⟨%d5, H5⟩, ⟨%d6, H6⟩⟩
    have hall : ∀ (y : S10240x128.Idx) (r : Fin 10000), (y 0).val = r.val → Y2 y = s2 m c (ix2 r ⟨(y 1).val, idx2_lt1 y⟩) :=
      fun y r hy => hinv.2 y r hy (by have := r.isLt; omega)
    iapply (run_late (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (fun h => by have := (hcond1 t).mp h; omega)
      (fun h => h2 ((hcond2 t).mp h)) ((hcond3 t).mpr ht) _ _ _ _ Set.univ _)
    isplitl [H1]; · iexact H1
    isplitl [HS2]; · iexact HS2
    isplitl [H5]; · iexact H5
    isplitl [H6]; · iexact H6
    iintro ⟨H1, HS2, H5, H6⟩
    isplitl [HS1 HS2 Hg]
    · iexists Y1; iexists Y2; isplitr
      · ipureintro
        exact ⟨fun _ => hinv.1 (by omega), fun y r hy _ => hall y r hy⟩
      isplitl [HS1]; · iexact HS1
      isplitl [HS2]; · iexact HS2
      iexact Hg
    isplitl [Ho]; · iexact Ho
    isplitl [H0]; · iexact H0
    isplitl [H1]; · iexists d1; iexact H1
    isplitl [H2]; · iexact H2
    isplitl [H3]; · iexact H3
    isplitl [H4]; · iexact H4
    isplitl [H5]; · iexact H5
    iexists (k0_pay3 ((cfg0.win 1).fill (grid0.coords t) d1 (iblk m c 1 t)) (s2Head Y2) (iblk m c 5 t))
    rw [show (cfg0.win 6).fill (grid0.coords t) (k0_pay3 ((cfg0.win 1).fill (grid0.coords t) d1 (iblk m c 1 t)) (s2Head Y2) (iblk m c 5 t))
        (((cfg0.win 6).blk t).view.read (Elt Ideal) (outG m c))
      = k0_pay3 ((cfg0.win 1).fill (grid0.coords t) d1 (iblk m c 1 t)) (s2Head Y2) (iblk m c 5 t) from by
        rw [← out_step m c t ht d1 Y2 hall]; exact (cfg0.win 6).fill_cut _ _]
    iexact H6

/-- The library's body obligation, at every point. -/
theorem vbody (c : Dev nD) : BodyObligationLoose (vdats m 0 c) (defs₀ (F := Ideal)) Variants.none () Set.univ := fun t => by
  rw [bigSep_W0, bigSep_W0]
  exact vsound m c t

/-- Before the first point nothing is asked of the scratch buffers. -/
theorem vhin (c : Dev nD) : (Pipeline.ΦA spec0 c : sProp 𝕀) ⊢ (vdats m 0 c).Φ 0 := by
  show _ ⊢ PhiV m c 0
  rw [PhiA_eq]; unfold PhiV
  iintro ⟨⟨⟨%e9, HS1⟩, ⟨%e10, HS2⟩⟩, Hg⟩
  iexists e9; iexists e10; isplitr
  · ipureintro; exact ⟨fun h => absurd h (lt_irrefl 0), fun y r _ hr => absurd hr (by omega)⟩
  isplitl [HS1]; · iexact HS1
  isplitl [HS2]; · iexact HS2
  iexact Hg

/-- After the last point what they hold is forgotten. -/
theorem vhout (c : Dev nD) : (vdats m 0 c).Φ (Fin.last cfg0.N) ⊢ (Pipeline.ΦA spec0 c : sProp 𝕀) := by
  show PhiV m c _ ⊢ _
  rw [PhiA_eq]; unfold PhiV
  iintro ⟨%Y1, %Y2, -, HS1, HS2, Hg⟩
  isplitl [HS1 HS2]
  · isplitl [HS1]
    · iexists Y1; iexact HS1
    · iexists Y2; iexact HS2
  iexact Hg

/-! ## The run -/

set_option backward.isDefEq.respectTransparency.types false in
theorem vrun_main : θ_run defs (onTc (τ := τ) (main (F := Ideal))) (s₀ m ρ) (Pipeline.FramePost cfgs (vdats m) 0 (V m)) :=
  Pipeline.θ_run_frame_track cfgs (vdats m) (0 : Fin 1) launch0 defs₀ Variants.none m ρ main
    (hbody := fun c => vbody m c) (hshare := fun c => (vdats m 0 c).share_full fun _ => rfl) (howed := fun _ _ => rfl)
    (V := V m) (hmain := hmain m Variants.none) (hA := fun c w => vA_eq m c w) (hin := vhin m) (hout := vhout m)

/-- Every stripe written back is the result's block, and the stripes cover the array: it ends holding the result. -/
theorem vfinal (c : Dev nD) : (vdats m 0 c).arrAt 6 cfg0.N = outG m c :=
  (vdats m 0 c).arrAt_eq_of_cover 6 (outG m c) (fun t _ => by
    show (cfg0.win 6).cut (grid0.coords t) ((vdats m 0 c).after 6 t) = _
    rw [vafter6]; exact (cfg0.win 6).cut_fill _ _ _) cover6

/-- The run, read: the output array at the result, the six argument arrays as they were. -/
theorem vrun : θ_run defs (onTc (τ := τ) (main (F := Ideal))) ⟨m, fun _ => 0, ρ⟩ (fun r => ∀ c : Dev nD,
      r.2.mem ((c.tc : Thread nD τ).loc main_v0) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (vfinal m c),
      ((h c).1 0).trans (((vdats m 0 c).arrAt_in 0 rfl _).trans ((vA_eq m c 0).trans (V_main_arg0 m c))),
      ((h c).1 1).trans (((vdats m 0 c).arrAt_in 1 rfl _).trans ((vA_eq m c 1).trans (V_main_arg1 m c))),
      ((h c).1 2).trans (((vdats m 0 c).arrAt_in 2 rfl _).trans ((vA_eq m c 2).trans (V_main_arg2 m c))),
      ((h c).2 main_arg3 (Pipeline.mem_restRefs_of main_arg3 (by decide) (by decide))).trans (V_main_arg3 m c),
      ((h c).1 4).trans (((vdats m 0 c).arrAt_in 4 rfl _).trans ((vA_eq m c 4).trans (V_main_arg4 m c))),
      ((h c).2 main_arg5 (Pipeline.mem_restRefs_of main_arg5 (by decide) (by decide))).trans (V_main_arg5 m c)⟩) (vrun_main m ρ)

end Cert.KernelIdeal.Hand

end
-- ==== Proof.lean ====
/-
  A two-layer graph convolution on a dense 10000 × 10000 adjacency matrix:

      out = logistic(adj · (max(adj · (x · W1) + b1, 0) · W2) + b2),      logistic z = 1 / (1 + e^(−z)).

  The kernel walks a 2 × 20 grid. In the first pass it forms s1 = x·W1 once and then, stripe by stripe of 512
  rows of adj, the rows of s2 = max(adj·s1 + b1, 0)·W2, keeping both in scratch memory; in the second pass it
  forms, stripe by stripe again, the rows of logistic(adj·s2 + b2) and writes them to the output. The reference
  computes the same expression on whole arrays. On extended reals, where a change of float format is the
  identity and every sum is exact, the two agree index by index: a row of a matrix product depends only on that
  row of the left factor, so cutting adj into stripes changes nothing, and 10000 not being a multiple of 512
  only means that the last stripe's trailing rows are computed from words nothing names and are never read or
  written back. No law is used that fails at an infinity, so the inputs' finiteness is not needed for the values.

  The claims: each of the three programs runs to the end without a fault and leaves its six argument arrays
  unchanged (for the two kernels, for any interpretation of the floats); the idealized kernel is the kernel's own
  text read on extended reals (nothing was rewritten); and the idealized kernel and the idealized reference, run
  from memories that agree on the arguments, end with the same result array.
-/
import proofs.«139752_g42614665511374_cont_8to1_b_1813_10_alg».proof.Defs
import proofs.«139752_g42614665511374_cont_8to1_b_1813_10_alg».proof.Proof.Gen.Kernel
import proofs.«139752_g42614665511374_cont_8to1_b_1813_10_alg».proof.Proof.Gen.KernelIdeal
import proofs.«139752_g42614665511374_cont_8to1_b_1813_10_alg».proof.Proof.Gen.ReferenceIdeal
import proofs.«139752_g42614665511374_cont_8to1_b_1813_10_alg».proof.Proof.Gen.Pre_finite_inputs
import proofs.«139752_g42614665511374_cont_8to1_b_1813_10_alg».proof.Proof.Gen.ReferenceIdeal.Run
import proofs.«139752_g42614665511374_cont_8to1_b_1813_10_alg».proof.Proof.Gen.ReferenceIdeal.Read
import proofs.«139752_g42614665511374_cont_8to1_b_1813_10_alg».proof.Proof.KFrame
import proofs.«139752_g42614665511374_cont_8to1_b_1813_10_alg».proof.Proof.KiFrame
import proofs.«139752_g42614665511374_cont_8to1_b_1813_10_alg».proof.Proof.KiRun
import Idealize.ShloMosaic.Adequacy
import Idealize.ShloMosaic.Init

noncomputable section

namespace Cert.Proof

open Idealize.ShloMosaic Idealize.SL.Sem

/-- The kernel as printed, on machine words: it runs and leaves its arguments as they were. -/
theorem frame_k : Cert.frame_Kernel := fun m ρ _ => Cert.Kernel.Hand.frame (F := Bits) m ρ

/-- The same text on extended reals. -/
theorem frame_ki : Cert.frame_KernelIdeal := fun m ρ _ => Cert.KernelIdeal.Hand.frame (F := Ideal) m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- Both idealized programs end with the reference's last stage, as a function of the argument arrays. -/
theorem algebraic : Cert.algebraic_KernelIdeal_ReferenceIdeal := by
  intro m ρ m' ρ' _ hagree
  refine ⟨fun c => Cert.KernelIdeal.Hand.outG m c, Cert.KernelIdeal.Hand.vrun m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
